-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S102400x128 : Shape := ⟨2, ![102400, 128]⟩
abbrev S4096x128 : Shape := ⟨2, ![4096, 128]⟩
abbrev S1700000x128 : Shape := ⟨2, ![1700000, 128]⟩
abbrev S106496x128 : Shape := ⟨2, ![106496, 128]⟩
abbrev S1x128 : Shape := ⟨2, ![1, 128]⟩
abbrev S8192x128 : Shape := ⟨2, ![8192, 128]⟩
abbrev S102400x64 : Shape := ⟨2, ![102400, 64]⟩
abbrev S4096x64 : Shape := ⟨2, ![4096, 64]⟩
abbrev S100000x64 : Shape := ⟨2, ![100000, 64]⟩
abbrev S1700000x64 : Shape := ⟨2, ![1700000, 64]⟩
abbrev S106496x64 : Shape := ⟨2, ![106496, 64]⟩
abbrev S1x64 : Shape := ⟨2, ![1, 64]⟩
abbrev S8192x64 : Shape := ⟨2, ![8192, 64]⟩

abbrev nBuf : Space → Nat
  | .hbm => 132
  | .vmem => 30
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S_, .f32⟩
  | 53 => ⟨S102400x128, .f32⟩
  | 54 => ⟨S102400x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S_, .i32⟩
  | 73 => ⟨S_, .f32⟩
  | 74 => ⟨S106496x128, .f32⟩
  | 75 => ⟨S1x128, .f32⟩
  | 76 => ⟨S106496x128, .f32⟩
  | 77 => ⟨S100000x128, .f32⟩
  | 78 => ⟨S_, .i32⟩
  | 79 => ⟨S_, .f32⟩
  | 80 => ⟨S102400x128, .f32⟩
  | 81 => ⟨S102400x128, .f32⟩
  | 82 => ⟨S100000x128, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x128, .f32⟩
  | 92 => ⟨S1700000x1, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S_, .i32⟩
  | 100 => ⟨S_, .f32⟩
  | 101 => ⟨S106496x128, .f32⟩
  | 102 => ⟨S1x128, .f32⟩
  | 103 => ⟨S106496x128, .f32⟩
  | 104 => ⟨S100000x128, .f32⟩
  | 105 => ⟨S_, .i32⟩
  | 106 => ⟨S_, .f32⟩
  | 107 => ⟨S102400x128, .f32⟩
  | 108 => ⟨S102400x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S_, .i32⟩
  | 127 => ⟨S_, .f32⟩
  | _ => ⟨S100000x128, .f32⟩

abbrev hbmTy0_1 (i : Nat) : BufTy := match i % 128 with
  | 0 => ⟨S106496x64, .f32⟩
  | 1 => ⟨S1x64, .f32⟩
  | 2 => ⟨S106496x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S8192x128, .f32⟩
  | .local _ .vmem, ⟨6, _⟩ => ⟨S8192x128, .f32⟩
  | .local _ .vmem, ⟨7, _⟩ => ⟨S1x128, .f32⟩
  | .local _ .vmem, ⟨8, _⟩ => ⟨S8192x128, .f32⟩
  | .local _ .vmem, ⟨9, _⟩ => ⟨S8192x128, .f32⟩
  | .local _ .vmem, ⟨10, _⟩ => ⟨S4096x128, .f32⟩
  | .local _ .vmem, ⟨11, _⟩ => ⟨S4096x128, .f32⟩
  | .local _ .vmem, ⟨12, _⟩ => ⟨S128x128, .f32⟩
  | .local _ .vmem, ⟨13, _⟩ => ⟨S4096x128, .f32⟩
  | .local _ .vmem, ⟨14, _⟩ => ⟨S4096x128, .f32⟩
  | .local _ .vmem, ⟨15, _⟩ => ⟨S8192x128, .f32⟩
  | .local _ .vmem, ⟨16, _⟩ => ⟨S8192x128, .f32⟩
  | .local _ .vmem, ⟨17, _⟩ => ⟨S1x128, .f32⟩
  | .local _ .vmem, ⟨18, _⟩ => ⟨S8192x128, .f32⟩
  | .local _ .vmem, ⟨19, _⟩ => ⟨S8192x128, .f32⟩
  | .local _ .vmem, ⟨20, _⟩ => ⟨S4096x128, .f32⟩
  | .local _ .vmem, ⟨21, _⟩ => ⟨S4096x128, .f32⟩
  | .local _ .vmem, ⟨22, _⟩ => ⟨S128x64, .f32⟩
  | .local _ .vmem, ⟨23, _⟩ => ⟨S4096x64, .f32⟩
  | .local _ .vmem, ⟨24, _⟩ => ⟨S4096x64, .f32⟩
  | .local _ .vmem, ⟨25, _⟩ => ⟨S8192x64, .f32⟩
  | .local _ .vmem, ⟨26, _⟩ => ⟨S8192x64, .f32⟩
  | .local _ .vmem, ⟨27, _⟩ => ⟨S1x64, .f32⟩
  | .local _ .vmem, ⟨28, _⟩ => ⟨S8192x64, .f32⟩
  | .local _ .vmem, ⟨29, _⟩ => ⟨S8192x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_call2_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_call4_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_call5_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_21 : Ref sig .tc := ⟨.hbm, 126, rfl⟩
abbrev main_call6_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![13], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8192x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x128_S102400x128_024000_000 : S100000x128.Pads (![0, 0] : Fin 2 → Nat) ![2400, 0] ![0, 0] S102400x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  slices_S102400x128_S100000x128_0_0 : S102400x128.Slices ![0, 0] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  pads_S100000x128_S106496x128_064960_000 : S100000x128.Pads (![0, 0] : Fin 2 → Nat) ![6496, 0] ![0, 0] S106496x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S106496x128_S100000x128_0_0 : S106496x128.Slices ![0, 0] S100000x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  slices_S102400x64_S100000x64_0_0 : S102400x64.Slices ![0, 0] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  pads_S100000x64_S106496x64_064960_000 : S100000x64.Pads (![0, 0] : Fin 2 → Nat) ![6496, 0] ![0, 0] S106496x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S106496x64_S100000x64_0_0 : S106496x64.Slices ![0, 0] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4096x128_S128x128_S4096x128_1_0_0_1_n_n_wf : DotDims.WF S4096x128 S128x128 S4096x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4096x128_S128x64_S4096x64_1_0_0_1_n_n_wf : DotDims.WF S4096x128 S128x64 S4096x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S102400x128.size a
  hwx0_2 : ∀ i : grid0.Coords, EltTy.bits .f32 = 32 ∨ (Rect.block (s := S102400x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S106496x128.size a
  hwx1_0 : ∀ i : grid1.Coords, EltTy.bits .f32 = 32 ∨ (Rect.block (s := S106496x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S106496x128.size a
  hwx1_2 : ∀ i : grid1.Coords, EltTy.bits .f32 = 32 ∨ (Rect.block (s := S106496x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S102400x128.size a
  hwx2_0 : ∀ i : grid2.Coords, EltTy.bits .f32 = 32 ∨ (Rect.block (s := S102400x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S102400x128.size a
  hwx2_2 : ∀ i : grid2.Coords, EltTy.bits .f32 = 32 ∨ (Rect.block (s := S102400x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S106496x128.size a
  hwx3_0 : ∀ i : grid3.Coords, EltTy.bits .f32 = 32 ∨ (Rect.block (s := S106496x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S106496x128.size a
  hwx3_2 : ∀ i : grid3.Coords, EltTy.bits .f32 = 32 ∨ (Rect.block (s := S106496x128) S8192x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S102400x128.size a
  hwx4_0 : ∀ i : grid4.Coords, EltTy.bits .f32 = 32 ∨ (Rect.block (s := S102400x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S102400x64.size a
  hwx4_2 : ∀ i : grid4.Coords, EltTy.bits .f32 = 32 ∨ (Rect.block (s := S102400x64) S4096x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S106496x64.size a
  hwx5_0 : ∀ i : grid5.Coords, EltTy.bits .f32 = 32 ∨ (Rect.block (s := S106496x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x64.size a ≤ S106496x64.size a
  hwx5_2 : ∀ i : grid5.Coords, EltTy.bits .f32 = 32 ∨ (Rect.block (s := S106496x64) S8192x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v32) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S8192x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S4096x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v88) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S8192x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .f32⟩
  | 75 => ⟨S_, .f32⟩
  | 76 => ⟨S_, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x128, .f32⟩
  | 99 => ⟨S1700000x1, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .f32⟩
  | 113 => ⟨S_, .f32⟩
  | 114 => ⟨S_, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x64, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S_, .f32⟩
  | 21 => ⟨S_, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S_, .f32⟩
  | 32 => ⟨S100000x64, .f32⟩
  | 33 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_10 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_14 : Ref sig .tc := ⟨.hbm, 90, rfl⟩
abbrev main_v57 : Ref sig .tc := ⟨.hbm, 91, rfl⟩
abbrev main_v58 : Ref sig .tc := ⟨.hbm, 92, rfl⟩
abbrev main_c_15 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call4_cst : Ref sig .tc := ⟨.hbm, 109, rfl⟩
abbrev main_call4_v0 : Ref sig .tc := ⟨.hbm, 110, rfl⟩
abbrev main_v73 : Ref sig .tc := ⟨.hbm, 111, rfl⟩
abbrev main_cst_17 : Ref sig .tc := ⟨.hbm, 112, rfl⟩
abbrev main_cst_18 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v74 : Ref sig .tc := ⟨.hbm, 119, rfl⟩
abbrev main_cst_19 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_20 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_21 : Ref sig .tc := ⟨.hbm, 128, rfl⟩
abbrev main_v81 : Ref sig .tc := ⟨.hbm, 129, rfl⟩
abbrev main_v82 : Ref sig .tc := ⟨.hbm, 130, rfl⟩
abbrev main_c_22 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_23 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_24 : Ref sig .tc := ⟨.hbm, 147, rfl⟩
abbrev main_cst_25 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v97 : Ref sig .tc := ⟨.hbm, 154, rfl⟩
abbrev main_cst_26 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_27 : Ref sig .tc := ⟨.hbm, 159, rfl⟩
abbrev main_v101 : Ref sig .tc := ⟨.hbm, 160, rfl⟩
abbrev main_v102 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named.

  The program is six pallas regions among stretches of host operations.  Its run is described by the contents of the
  TensorCore's buffers at every boundary between two such segments: a stretch of host operations rewrites the buffers its
  operations write and leaves the rest, a region leaves each of its arrays at what its write-backs fold to and every other
  buffer as entered.  Folding these from the launch memory gives the contents at the return, and every weakly fair execution
  ends with every unscoped buffer at exactly those contents.  The frame claim reads only the eight argument buffers off that
  final state; here the same final state is read at the result buffer as well, so that the result is named as the last
  boundary's contents at that buffer, a function of the launch memory that the value proof then computes.
-/
import proofs.«134931_j22728966931036_1_alg».proof.Proof.Gen.KernelIdeal.Frame

set_option maxRecDepth 16384

noncomputable section

namespace Cert.KernelIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the eight argument buffers as launched. -/
theorem run_result : θ_run defs (onTc (τ := τ) (main (F := F))) ⟨m, fun _ => 0, ρ⟩ (fun r => ∀ c : Dev nD,
      r.2.mem ((c.tc : Thread nD τ).loc main_v91) = W24 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v91 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c)⟩)

end Cert.KernelIdeal.RunVal

end
-- ==== Proof.Carry.lean ====
/-
  Which buffers the segments of the program leave alone.

  Three arrays computed once from the edge list — the gather indices (source node of every edge and self-loop), the scatter
  indices (target node) and the edge weights d^-1/2[source] · d^-1/2[target] — and the six weight and bias arguments are read
  again and again by later segments, long after the segment that wrote (or received) them.  No later host operation and no
  region writes any of them: a host stretch rewrites only its operations' result buffers, a region only its output array (a weight argument that a region reads through an input
  window ends as it was entered).  So at every later boundary each of these buffers still holds what it held at the boundary where it was first complete.
-/
import proofs.«134931_j22728966931036_1_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]

/-- A buffer that no operation of a stretch writes holds after the stretch what it held before: each operation writes its
    one result buffer, which is another buffer. -/
macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The contents `W'` agree with the contents `W` on the indices, the edge weights and the six weight and bias arguments. -/
structure Kept (W W' : Valuation τ sig (Elt F)) : Prop where
  src : W' (Proc.devRef .tc main_v3) = W (Proc.devRef .tc main_v3)
  dst : W' (Proc.devRef .tc main_v6) = W (Proc.devRef .tc main_v6)
  nrm : W' (Proc.devRef .tc main_v31) = W (Proc.devRef .tc main_v31)
  w1 : W' (Proc.devRef .tc main_arg2) = W (Proc.devRef .tc main_arg2)
  b1 : W' (Proc.devRef .tc main_arg3) = W (Proc.devRef .tc main_arg3)
  w2 : W' (Proc.devRef .tc main_arg4) = W (Proc.devRef .tc main_arg4)
  b2 : W' (Proc.devRef .tc main_arg5) = W (Proc.devRef .tc main_arg5)
  w3 : W' (Proc.devRef .tc main_arg6) = W (Proc.devRef .tc main_arg6)
  b3 : W' (Proc.devRef .tc main_arg7) = W (Proc.devRef .tc main_arg7)

theorem Kept.trans {W W' W'' : Valuation τ sig (Elt F)} (h : Kept W W') (h' : Kept W' W'') : Kept W W'' :=
  ⟨h'.src.trans h.src, h'.dst.trans h.dst, h'.nrm.trans h.nrm, h'.w1.trans h.w1, h'.b1.trans h.b1, h'.w2.trans h.w2, h'.b2.trans h.b2, h'.w3.trans h.w3, h'.b3.trans h.b3⟩

/-- The contents `W'` agree with the contents `W` on the six weight and bias arguments. -/
structure KeptArgs (W W' : Valuation τ sig (Elt F)) : Prop where
  w1 : W' (Proc.devRef .tc main_arg2) = W (Proc.devRef .tc main_arg2)
  b1 : W' (Proc.devRef .tc main_arg3) = W (Proc.devRef .tc main_arg3)
  w2 : W' (Proc.devRef .tc main_arg4) = W (Proc.devRef .tc main_arg4)
  b2 : W' (Proc.devRef .tc main_arg5) = W (Proc.devRef .tc main_arg5)
  w3 : W' (Proc.devRef .tc main_arg6) = W (Proc.devRef .tc main_arg6)
  b3 : W' (Proc.devRef .tc main_arg7) = W (Proc.devRef .tc main_arg7)

theorem KeptArgs.trans {W W' W'' : Valuation τ sig (Elt F)} (h : KeptArgs W W') (h' : KeptArgs W' W'') : KeptArgs W W'' :=
  ⟨h'.w1.trans h.w1, h'.b1.trans h.b1, h'.w2.trans h.w2, h'.b2.trans h.b2, h'.w3.trans h.w3, h'.b3.trans h.b3⟩

variable (m : (ℓ : Loc nD τ sig) → Buf (Elt F) ℓ) (ρ : Dev nD → PrngReg) (c : Dev nD)

/-! ## Before the first region: the arguments -/

theorem args_hostOps0 : KeptArgs (W0 m ρ c) (W1 m ρ c) :=
  ⟨by unwritten hostOps0, by unwritten hostOps0, by unwritten hostOps0, by unwritten hostOps0, by unwritten hostOps0, by unwritten hostOps0⟩
theorem args_hostOps0_1 : KeptArgs (W1 m ρ c) (W2 m ρ c) :=
  ⟨by unwritten hostOps0_1, by unwritten hostOps0_1, by unwritten hostOps0_1, by unwritten hostOps0_1, by unwritten hostOps0_1, by unwritten hostOps0_1⟩
theorem args_hostOps0_2 : KeptArgs (W2 m ρ c) (W3 m ρ c) :=
  ⟨by unwritten hostOps0_2, by unwritten hostOps0_2, by unwritten hostOps0_2, by unwritten hostOps0_2, by unwritten hostOps0_2, by unwritten hostOps0_2⟩
theorem args_hostOps0_3 : KeptArgs (W3 m ρ c) (W4 m ρ c) :=
  ⟨by unwritten hostOps0_3, by unwritten hostOps0_3, by unwritten hostOps0_3, by unwritten hostOps0_3, by unwritten hostOps0_3, by unwritten hostOps0_3⟩

/-- At the first region's entry the six weight and bias arguments are as launched. -/
theorem args_entry : KeptArgs (W0 m ρ c) (W4 m ρ c) :=
  (((args_hostOps0 m ρ c).trans (args_hostOps0_1 m ρ c)).trans (args_hostOps0_2 m ρ c)).trans (args_hostOps0_3 m ρ c)

/-! ## From the first region on: one step per segment -/

theorem kept_hostOps1 : Kept (W5 m ρ c) (W6 m ρ c) :=
  ⟨by unwritten hostOps1, by unwritten hostOps1, by unwritten hostOps1, by unwritten hostOps1, by unwritten hostOps1, by unwritten hostOps1, by unwritten hostOps1, by unwritten hostOps1, by unwritten hostOps1⟩
theorem kept_hostOps1_1 : Kept (W6 m ρ c) (W7 m ρ c) :=
  ⟨by unwritten hostOps1_1, by unwritten hostOps1_1, by unwritten hostOps1_1, by unwritten hostOps1_1, by unwritten hostOps1_1, by unwritten hostOps1_1, by unwritten hostOps1_1, by unwritten hostOps1_1, by unwritten hostOps1_1⟩
theorem kept_hostOps1_2 : Kept (W7 m ρ c) (W8 m ρ c) :=
  ⟨by unwritten hostOps1_2, by unwritten hostOps1_2, by unwritten hostOps1_2, by unwritten hostOps1_2, by unwritten hostOps1_2, by unwritten hostOps1_2, by unwritten hostOps1_2, by unwritten hostOps1_2, by unwritten hostOps1_2⟩
theorem kept_hostOps2 : Kept (W9 m ρ c) (W10 m ρ c) :=
  ⟨by unwritten hostOps2, by unwritten hostOps2, by unwritten hostOps2, by unwritten hostOps2, by unwritten hostOps2, by unwritten hostOps2, by unwritten hostOps2, by unwritten hostOps2, by unwritten hostOps2⟩
theorem kept_hostOps2_1 : Kept (W10 m ρ c) (W11 m ρ c) :=
  ⟨by unwritten hostOps2_1, by unwritten hostOps2_1, by unwritten hostOps2_1, by unwritten hostOps2_1, by unwritten hostOps2_1, by unwritten hostOps2_1, by unwritten hostOps2_1, by unwritten hostOps2_1, by unwritten hostOps2_1⟩
theorem kept_hostOps3 : Kept (W12 m ρ c) (W13 m ρ c) :=
  ⟨by unwritten hostOps3, by unwritten hostOps3, by unwritten hostOps3, by unwritten hostOps3, by unwritten hostOps3, by unwritten hostOps3, by unwritten hostOps3, by unwritten hostOps3, by unwritten hostOps3⟩
theorem kept_hostOps3_1 : Kept (W13 m ρ c) (W14 m ρ c) :=
  ⟨by unwritten hostOps3_1, by unwritten hostOps3_1, by unwritten hostOps3_1, by unwritten hostOps3_1, by unwritten hostOps3_1, by unwritten hostOps3_1, by unwritten hostOps3_1, by unwritten hostOps3_1, by unwritten hostOps3_1⟩
theorem kept_hostOps3_2 : Kept (W14 m ρ c) (W15 m ρ c) :=
  ⟨by unwritten hostOps3_2, by unwritten hostOps3_2, by unwritten hostOps3_2, by unwritten hostOps3_2, by unwritten hostOps3_2, by unwritten hostOps3_2, by unwritten hostOps3_2, by unwritten hostOps3_2, by unwritten hostOps3_2⟩
theorem kept_hostOps4 : Kept (W16 m ρ c) (W17 m ρ c) :=
  ⟨by unwritten hostOps4, by unwritten hostOps4, by unwritten hostOps4, by unwritten hostOps4, by unwritten hostOps4, by unwritten hostOps4, by unwritten hostOps4, by unwritten hostOps4, by unwritten hostOps4⟩
theorem kept_hostOps4_1 : Kept (W17 m ρ c) (W18 m ρ c) :=
  ⟨by unwritten hostOps4_1, by unwritten hostOps4_1, by unwritten hostOps4_1, by unwritten hostOps4_1, by unwritten hostOps4_1, by unwritten hostOps4_1, by unwritten hostOps4_1, by unwritten hostOps4_1, by unwritten hostOps4_1⟩
theorem kept_hostOps5 : Kept (W19 m ρ c) (W20 m ρ c) :=
  ⟨by unwritten hostOps5, by unwritten hostOps5, by unwritten hostOps5, by unwritten hostOps5, by unwritten hostOps5, by unwritten hostOps5, by unwritten hostOps5, by unwritten hostOps5, by unwritten hostOps5⟩
theorem kept_hostOps5_1 : Kept (W20 m ρ c) (W21 m ρ c) :=
  ⟨by unwritten hostOps5_1, by unwritten hostOps5_1, by unwritten hostOps5_1, by unwritten hostOps5_1, by unwritten hostOps5_1, by unwritten hostOps5_1, by unwritten hostOps5_1, by unwritten hostOps5_1, by unwritten hostOps5_1⟩
theorem kept_hostOps5_2 : Kept (W21 m ρ c) (W22 m ρ c) :=
  ⟨by unwritten hostOps5_2, by unwritten hostOps5_2, by unwritten hostOps5_2, by unwritten hostOps5_2, by unwritten hostOps5_2, by unwritten hostOps5_2, by unwritten hostOps5_2, by unwritten hostOps5_2, by unwritten hostOps5_2⟩

/-- Region 0 writes only its own arrays. -/
theorem kept_region0 : Kept (W4 m ρ c) (W5 m ρ c) :=
  ⟨W5_of_ne m ρ c main_v3 (by decide), W5_of_ne m ρ c main_v6 (by decide), W5_of_ne m ρ c main_v31 (by decide), (W5_arr m ρ c 1).trans (((dat0 (V4 m ρ) c).arrAt_in 1 rfl _).trans (A_eq0 (V4 m ρ) c 1)), W5_of_ne m ρ c main_arg3 (by decide), W5_of_ne m ρ c main_arg4 (by decide), W5_of_ne m ρ c main_arg5 (by decide), W5_of_ne m ρ c main_arg6 (by decide), W5_of_ne m ρ c main_arg7 (by decide)⟩
/-- Region 1 writes only its own arrays. -/
theorem kept_region1 : Kept (W8 m ρ c) (W9 m ρ c) :=
  ⟨W9_of_ne m ρ c main_v3 (by decide), W9_of_ne m ρ c main_v6 (by decide), W9_of_ne m ρ c main_v31 (by decide), W9_of_ne m ρ c main_arg2 (by decide), W9_of_ne m ρ c main_arg3 (by decide), W9_of_ne m ρ c main_arg4 (by decide), W9_of_ne m ρ c main_arg5 (by decide), W9_of_ne m ρ c main_arg6 (by decide), W9_of_ne m ρ c main_arg7 (by decide)⟩
/-- Region 2 writes only its own arrays. -/
theorem kept_region2 : Kept (W11 m ρ c) (W12 m ρ c) :=
  ⟨W12_of_ne m ρ c main_v3 (by decide), W12_of_ne m ρ c main_v6 (by decide), W12_of_ne m ρ c main_v31 (by decide), W12_of_ne m ρ c main_arg2 (by decide), W12_of_ne m ρ c main_arg3 (by decide), (W12_arr m ρ c 1).trans (((dat2 (V11 m ρ) c).arrAt_in 1 rfl _).trans (A_eq2 (V11 m ρ) c 1)), W12_of_ne m ρ c main_arg5 (by decide), W12_of_ne m ρ c main_arg6 (by decide), W12_of_ne m ρ c main_arg7 (by decide)⟩
/-- Region 3 writes only its own arrays. -/
theorem kept_region3 : Kept (W15 m ρ c) (W16 m ρ c) :=
  ⟨W16_of_ne m ρ c main_v3 (by decide), W16_of_ne m ρ c main_v6 (by decide), W16_of_ne m ρ c main_v31 (by decide), W16_of_ne m ρ c main_arg2 (by decide), W16_of_ne m ρ c main_arg3 (by decide), W16_of_ne m ρ c main_arg4 (by decide), W16_of_ne m ρ c main_arg5 (by decide), W16_of_ne m ρ c main_arg6 (by decide), W16_of_ne m ρ c main_arg7 (by decide)⟩
/-- Region 4 writes only its own arrays. -/
theorem kept_region4 : Kept (W18 m ρ c) (W19 m ρ c) :=
  ⟨W19_of_ne m ρ c main_v3 (by decide), W19_of_ne m ρ c main_v6 (by decide), W19_of_ne m ρ c main_v31 (by decide), W19_of_ne m ρ c main_arg2 (by decide), W19_of_ne m ρ c main_arg3 (by decide), W19_of_ne m ρ c main_arg4 (by decide), W19_of_ne m ρ c main_arg5 (by decide), (W19_arr m ρ c 1).trans (((dat4 (V18 m ρ) c).arrAt_in 1 rfl _).trans (A_eq4 (V18 m ρ) c 1)), W19_of_ne m ρ c main_arg7 (by decide)⟩

/-! ## The boundaries where these buffers are read again -/

/-- Entry of the first layer's gather / scatter (after region 0). -/
theorem kept_4_5 : Kept (W4 m ρ c) (W5 m ρ c) := kept_region0 m ρ c
/-- Where the first bias is reshaped. -/
theorem kept_4_7 : Kept (W4 m ρ c) (W7 m ρ c) := ((kept_4_5 m ρ c).trans (kept_hostOps1 m ρ c)).trans (kept_hostOps1_1 m ρ c)
/-- Entry of region 2 (the second layer's product). -/
theorem kept_4_11 : Kept (W4 m ρ c) (W11 m ρ c) :=
  ((((kept_4_7 m ρ c).trans (kept_hostOps1_2 m ρ c)).trans (kept_region1 m ρ c)).trans (kept_hostOps2 m ρ c)).trans (kept_hostOps2_1 m ρ c)
/-- Entry of the second layer's gather / scatter (after region 2). -/
theorem kept_4_12 : Kept (W4 m ρ c) (W12 m ρ c) := (kept_4_11 m ρ c).trans (kept_region2 m ρ c)
/-- Where the second bias is reshaped. -/
theorem kept_4_14 : Kept (W4 m ρ c) (W14 m ρ c) := ((kept_4_12 m ρ c).trans (kept_hostOps3 m ρ c)).trans (kept_hostOps3_1 m ρ c)
/-- Entry of region 4 (the third layer's product). -/
theorem kept_4_18 : Kept (W4 m ρ c) (W18 m ρ c) :=
  ((((kept_4_14 m ρ c).trans (kept_hostOps3_2 m ρ c)).trans (kept_region3 m ρ c)).trans (kept_hostOps4 m ρ c)).trans (kept_hostOps4_1 m ρ c)
/-- Entry of the third layer's gather / scatter (after region 4). -/
theorem kept_4_19 : Kept (W4 m ρ c) (W19 m ρ c) := (kept_4_18 m ρ c).trans (kept_region4 m ρ c)
/-- Where the third bias is reshaped. -/
theorem kept_4_21 : Kept (W4 m ρ c) (W21 m ρ c) := ((kept_4_19 m ρ c).trans (kept_hostOps5 m ρ c)).trans (kept_hostOps5_1 m ρ c)

end Cert.KernelIdeal.Carry

end
-- ==== Proof.HostPrefix.lean ====
/-
  What the first region finds.

  Before the first region the program computes, by host operations on the edge list alone, the three arrays every layer
  reuses: the gather indices (the source node of each of the 1,600,000 edges followed by the 100,000 self-loops), the
  scatter indices (the target nodes, likewise) and the edge weights d^-1/2[source] · d^-1/2[target], where d counts the edges
  into a node (self-loop included).  The reference computes the same three arrays by the same operations in the same order,
  so each is the reference's stage of the same name, as a function of the edge list (the two index arrays here; the
  edge weights, which go through more operations, in their own module).  The region's own input is the node
  features padded below with 2400 rows of a constant.
-/
import proofs.«134931_j22728966931036_1_alg».proof.Proof.Gen.KernelIdeal.Frame
import proofs.«134931_j22728966931036_1_alg».proof.Proof.RefRead
import Idealize.ShloMosaic.PureOps.Ideal

set_option maxRecDepth 16384

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
/-- The gather indices: the edge list's first row followed by 0, 1, …, 99999. -/
theorem src_eq : W4 m ρ c (Proc.devRef .tc main_v3) = Cert.ReferenceIdeal.ReadP.val_main_v3 (F := Ideal) (m ((c : Thread nD τ).loc main_arg1)) := by
  show StableHlo.after hostOps0_3 (StableHlo.after hostOps0_2 (StableHlo.after hostOps0_1 (StableHlo.after hostOps0 (W0 m ρ c)))) (Proc.devRef .tc main_v3) = _
  after_results_simp
  unfold Cert.ReferenceIdeal.ReadP.val_main_v3 Cert.ReferenceIdeal.ReadP.val_main_v2 Cert.ReferenceIdeal.ReadP.val_main_v1 Cert.ReferenceIdeal.ReadP.val_main_v0
  rfl

set_option maxHeartbeats 4000000 in
/-- The scatter indices: the edge list's second row followed by 0, 1, …, 99999. -/
theorem dst_eq : W4 m ρ c (Proc.devRef .tc main_v6) = Cert.ReferenceIdeal.ReadP.val_main_v6 (F := Ideal) (m ((c : Thread nD τ).loc main_arg1)) := by
  show StableHlo.after hostOps0_3 (StableHlo.after hostOps0_2 (StableHlo.after hostOps0_1 (StableHlo.after hostOps0 (W0 m ρ c)))) (Proc.devRef .tc main_v6) = _
  after_results_simp
  unfold Cert.ReferenceIdeal.ReadP.val_main_v6 Cert.ReferenceIdeal.ReadP.val_main_v5 Cert.ReferenceIdeal.ReadP.val_main_v4 Cert.ReferenceIdeal.ReadP.val_main_v0
  rfl

set_option maxHeartbeats 4000000 in
/-- The first region's input: the node features with 2400 constant rows appended. -/
theorem x_padded : W4 m ρ c (Proc.devRef .tc main_v32)
    = pad S102400x128 ![0, 0] ![2400, 0] ![0, 0] ((m ((c : Thread nD τ).loc main_arg0)) : (⟨S100000x128, .f32⟩ : BufTy).Contents (Elt Ideal))
        (sitofp (F := Ideal) .f32 (constantI S_ 32 0#32))
        pads_S100000x128_S102400x128_024000_000 h_S_ := by
  show StableHlo.after hostOps0_3 (StableHlo.after hostOps0_2 (StableHlo.after hostOps0_1 (StableHlo.after hostOps0 (W0 m ρ c)))) (Proc.devRef .tc main_v32) = _
  after_results_simp
  rfl

end Cert.KernelIdeal.Prefix

end
-- ==== Proof.EdgeWeights.lean ====
/-
  The edge weights at the first region's entry.

  A graph-convolution layer weighs the edge from node s to node t by  d(s)^-1/2 · d(t)^-1/2,  where d(n) is the number of
  edges into n, its self-loop included.  The program computes these 1,700,000 weights once, before the first region, by
  host operations on the edge list alone, in four stretches:
    * from the edge list: the source nodes s and the target nodes t (each edge's, then the 100,000 self-loops'), the
      degrees d (a scatter-add of ones at the targets), the test d > 0 and the inverse square root of max(d, 1);
    * d^-1/2 := where d > 0 the inverse square root, elsewhere 0;
    * the weights: d^-1/2 gathered at the sources times d^-1/2 gathered at the targets (a negative index counted from the end);
    * the padding of the node features, which touches none of these.
  The reference performs the same operations in the same order, so each stage is the reference's stage of the same name as a
  function of the edge list.  Each stretch is read with the contents it starts from as a VARIABLE: what it leaves in a
  buffer is a short term of a few of those contents, and the stretches compose by substitution.
-/
import proofs.«134931_j22728966931036_1_alg».proof.Proof.Gen.KernelIdeal.Frame
import proofs.«134931_j22728966931036_1_alg».proof.Proof.RefRead
import Idealize.ShloMosaic.PureOps.Ideal

set_option maxRecDepth 16384

noncomputable section

namespace Cert.KernelIdeal.EdgeWeights

open Idealize.ShloMosaic Idealize.ShloMosaic.TcCoe Idealize.SL.Sem Idealize.ShloMosaic.StableHlo
open Cert.KernelIdeal Cert.KernelIdeal.Gen

/-! ## The weights as a function of d^-1/2, the sources and the targets -/

/-- Node indices as the gather takes them: a negative index counts from the end (index + 100000), and the list becomes a
    column. -/
def asStarts (s : (⟨S1700000, .i32⟩ : BufTy).Contents (Elt Ideal)) : (⟨S1700000x1, .i32⟩ : BufTy).Contents (Elt Ideal) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- A per-node value read at each edge's node. -/
def gatheredAt (dinv : (⟨S100000, .f32⟩ : BufTy).Contents (Elt Ideal)) (s : (⟨S1700000, .i32⟩ : BufTy).Contents (Elt Ideal)) :
    (⟨S1700000, .f32⟩ : BufTy).Contents (Elt Ideal) :=
  Host.gather gather_S100000_S1700000x1_S1700000_n_0_n_n_0_1_1 dinv (asStarts s)

/-- The weight of every edge: d^-1/2 at its source times d^-1/2 at its target. -/
def weights (dinv : (⟨S100000, .f32⟩ : BufTy).Contents (Elt Ideal)) (s t : (⟨S1700000, .i32⟩ : BufTy).Contents (Elt Ideal)) :
    (⟨S1700000, .f32⟩ : BufTy).Contents (Elt Ideal) :=
  mulf (F := Ideal) (s := S1700000) (φ := .f32) (gatheredAt dinv s) (gatheredAt dinv t)

/-- The reference's weights are that function of its d^-1/2, sources and targets. -/
theorem ref_weights (x1 : (⟨Cert.ReferenceIdeal.S2x1600000, .i32⟩ : BufTy).Contents (Elt Ideal)) :
    Cert.ReferenceIdeal.ReadP.val_main_v31 (F := Ideal) x1
      = weights (Cert.ReferenceIdeal.ReadP.val_main_v16 (F := Ideal) x1) (Cert.ReferenceIdeal.ReadP.val_main_v3 (F := Ideal) x1) (Cert.ReferenceIdeal.ReadP.val_main_v6 (F := Ideal) x1) := by
  unfold Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_c_6 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_c_4 Cert.ReferenceIdeal.ReadP.val_main_v18 Cert.ReferenceIdeal.ReadP.val_main_v17 Cert.ReferenceIdeal.ReadP.val_main_c weights gatheredAt asStarts
  rfl

/-! ## The four stretches, each from arbitrary contents `W` -/

section Stretches
variable (W : Valuation τ sig (Elt Ideal))

set_option maxHeartbeats 4000000 in
/-- First stretch: the sources. -/
theorem sources_step : StableHlo.after hostOps0 W (Proc.devRef .tc main_v3) = Cert.ReferenceIdeal.ReadP.val_main_v3 (F := Ideal) (W (Proc.devRef .tc main_arg1)) := by
  after_results_simp
  unfold Cert.ReferenceIdeal.ReadP.val_main_v3 Cert.ReferenceIdeal.ReadP.val_main_v2 Cert.ReferenceIdeal.ReadP.val_main_v1 Cert.ReferenceIdeal.ReadP.val_main_v0
  rfl

set_option maxHeartbeats 4000000 in
/-- First stretch: the targets. -/
theorem targets_step : StableHlo.after hostOps0 W (Proc.devRef .tc main_v6) = Cert.ReferenceIdeal.ReadP.val_main_v6 (F := Ideal) (W (Proc.devRef .tc main_arg1)) := by
  after_results_simp
  unfold Cert.ReferenceIdeal.ReadP.val_main_v6 Cert.ReferenceIdeal.ReadP.val_main_v5 Cert.ReferenceIdeal.ReadP.val_main_v4 Cert.ReferenceIdeal.ReadP.val_main_v0
  rfl

set_option maxHeartbeats 4000000 in
/-- First stretch: the test d > 0. -/
theorem positive_step : StableHlo.after hostOps0 W (Proc.devRef .tc main_v12) = Cert.ReferenceIdeal.ReadP.val_main_v12 (F := Ideal) (W (Proc.devRef .tc main_arg1)) := by
  after_results_simp
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_cst_0 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 4000000 in
/-- First stretch: the inverse square root of max(d, 1). -/
theorem rsqrt_step : StableHlo.after hostOps0 W (Proc.devRef .tc main_v15) = Cert.ReferenceIdeal.ReadP.val_main_v15 (F := Ideal) (W (Proc.devRef .tc main_arg1)) := by
  after_results_simp
  unfold Cert.ReferenceIdeal.ReadP.val_main_v15 Cert.ReferenceIdeal.ReadP.val_main_v14 Cert.ReferenceIdeal.ReadP.val_main_v13 Cert.ReferenceIdeal.ReadP.val_main_cst_2 Cert.ReferenceIdeal.ReadP.val_main_v10 Cert.ReferenceIdeal.ReadP.val_main_v9 Cert.ReferenceIdeal.ReadP.val_main_v8 Cert.ReferenceIdeal.ReadP.val_main_cst_0 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 4000000 in
/-- First stretch: the zero the isolated nodes take. -/
theorem zero_step : StableHlo.after hostOps0 W (Proc.devRef .tc main_cst_3) = Cert.ReferenceIdeal.ReadP.val_main_cst_3 (F := Ideal) := by
  after_results_simp
  rfl

/-- Second stretch: d^-1/2 is the inverse square root where d > 0, the zero elsewhere. -/
theorem where_step : StableHlo.after hostOps0_1 W (Proc.devRef .tc main_v16)
    = select (W (Proc.devRef .tc main_v12)) (W (Proc.devRef .tc main_v15))
        (broadcastInDim S100000 ![] bcast_S_S100000 (id (W (Proc.devRef .tc main_cst_3)))) := by
  after_results_simp
  rfl

/-- The second stretch leaves the sources and the targets alone. -/
theorem where_keeps_sources : StableHlo.after hostOps0_1 W (Proc.devRef .tc main_v3) = W (Proc.devRef .tc main_v3) := by
  after_results_simp
theorem where_keeps_targets : StableHlo.after hostOps0_1 W (Proc.devRef .tc main_v6) = W (Proc.devRef .tc main_v6) := by
  after_results_simp

/-- Third stretch: the weights, from d^-1/2, the sources and the targets as the stretch finds them. -/
theorem weights_step : StableHlo.after hostOps0_2 W (Proc.devRef .tc main_v31)
    = weights (W (Proc.devRef .tc main_v16)) (W (Proc.devRef .tc main_v3)) (W (Proc.devRef .tc main_v6)) := by
  after_results_simp
  rfl

/-- The fourth stretch (the padding of the features) leaves the weights alone. -/
theorem pad_keeps_weights : StableHlo.after hostOps0_3 W (Proc.devRef .tc main_v31) = W (Proc.devRef .tc main_v31) := by
  after_results_simp

end Stretches

/-! ## Composed, from the launch contents -/

variable (m : (ℓ : Loc nD τ sig) → Buf (Elt Ideal) ℓ) (ρ : Dev nD → PrngReg) (c : Dev nD)

/-- d^-1/2 after the second stretch is the reference's. -/
theorem dinv_eq : W2 m ρ c (Proc.devRef .tc main_v16) = Cert.ReferenceIdeal.ReadP.val_main_v16 (F := Ideal) (m ((c : Thread nD τ).loc main_arg1)) := by
  refine (where_step (W1 m ρ c)).trans ?_
  refine (congrArg₂ (fun p r => select p r (broadcastInDim S100000 ![] bcast_S_S100000 (id (W1 m ρ c (Proc.devRef .tc main_cst_3)))))
    (positive_step (W0 m ρ c)) (rsqrt_step (W0 m ρ c))).trans ?_
  refine (congrArg (fun z => select (Cert.ReferenceIdeal.ReadP.val_main_v12 (F := Ideal) (W0 m ρ c (Proc.devRef .tc main_arg1)))
    (Cert.ReferenceIdeal.ReadP.val_main_v15 (F := Ideal) (W0 m ρ c (Proc.devRef .tc main_arg1))) (broadcastInDim S100000 ![] bcast_S_S100000 (id z)))
    (zero_step (W0 m ρ c))).trans ?_
  unfold Cert.ReferenceIdeal.ReadP.val_main_v16 Cert.ReferenceIdeal.ReadP.val_main_call0_v1 Cert.ReferenceIdeal.ReadP.val_main_call0_v0
  rfl

/-- THE EDGE WEIGHTS at the first region's entry are the reference's, as a function of the edge list. -/
theorem nrm_eq : W4 m ρ c (Proc.devRef .tc main_v31) = Cert.ReferenceIdeal.ReadP.val_main_v31 (F := Ideal) (m ((c : Thread nD τ).loc main_arg1)) := by
  refine (pad_keeps_weights (W3 m ρ c)).trans ?_
  refine (weights_step (W2 m ρ c)).trans ?_
  refine (congrArg (fun d => weights d (W2 m ρ c (Proc.devRef .tc main_v3)) (W2 m ρ c (Proc.devRef .tc main_v6))) (dinv_eq m ρ c)).trans ?_
  refine (congrArg₂ (fun s t => weights (Cert.ReferenceIdeal.ReadP.val_main_v16 (F := Ideal) (m ((c : Thread nD τ).loc main_arg1))) s t)
    ((where_keeps_sources (W1 m ρ c)).trans (sources_step (W0 m ρ c)))
    ((where_keeps_targets (W1 m ρ c)).trans (targets_step (W0 m ρ c)))).trans ?_
  exact (ref_weights _).symm

end Cert.KernelIdeal.EdgeWeights

end
-- ==== Proof.Stretches.lean ====
/-
  The host stretches between the regions, each as a function of the contents it starts from.

  A stretch of host operations is a fold: each operation rewrites its result buffer with its function of its operands'
  contents and leaves every other buffer.  Read at the buffer a later region (or the return) takes, a stretch is therefore
  one composed term of the contents `W` it was entered with — here with `W` a variable, so that no earlier part of the
  program is ever expanded inside it.
-/
import proofs.«134931_j22728966931036_1_alg».proof.Proof.Gen.KernelIdeal.Frame

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- Layer 1's message passing as the host computes it from the contents `W` it starts from: the product's first 100000 rows
    are gathered at every edge's source (a negative index wrapped once, as the program spells it), scaled by the edge's weight
    and summed into the edge's target. -/
theorem aggregate1 (W : Valuation τ sig (Elt F)) : StableHlo.after hostOps1 W (Proc.devRef .tc main_v47)
    = Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 (W (Proc.devRef .tc main_v6)))
        (mulf
          (Host.gather gather_S100000x128_S1700000x1_S1700000x128_1_0_n_n_0_1_1128
            (extractStridedSlice S100000x128 ![0, 0] (W (Proc.devRef .tc main_v33)) slices_S102400x128_S100000x128_0_0)
            (broadcastInDim S1700000x1 ![0] bcast_S1700000_S1700000x1_0
              (select (cmpi .slt (W (Proc.devRef .tc main_v3)) (broadcastInDim S1700000 ![] bcast_S_S1700000 (constantI S_ 32 0#32)))
                (addi (W (Proc.devRef .tc main_v3)) (broadcastInDim S1700000 ![] bcast_S_S1700000 (constantI S_ 32 100000#32)))
                (W (Proc.devRef .tc main_v3)))))
          (broadcastInDim S1700000x128 ![0, 1] bcast_S1700000x1_S1700000x128_0_1
            (broadcastInDim S1700000x1 ![0] bcast_S1700000_S1700000x1_0 (W (Proc.devRef .tc main_v31))))) := by
  after_results_simp
  try rfl

set_option maxHeartbeats 4000000 in
/-- The aggregated array padded below with 6496 rows of a constant, for the region that adds the bias. -/
theorem padded1 (W : Valuation τ sig (Elt F)) : StableHlo.after hostOps1_2 (StableHlo.after hostOps1_1 W) (Proc.devRef .tc main_v48)
    = pad S106496x128 ![0, 0] ![6496, 0] ![0, 0] (W (Proc.devRef .tc main_v47)) (sitofp .f32 (W (Proc.devRef .tc main_c_11))) pads_S100000x128_S106496x128_064960_000 h_S_ := by
  after_results_simp
  simp only [TRef.toBuf, TRef.ofBuf, cast_eq]

set_option maxHeartbeats 4000000 in
/-- The bias as one row. -/
theorem biasRow1 (W : Valuation τ sig (Elt F)) : StableHlo.after hostOps1_2 (StableHlo.after hostOps1_1 W) (Proc.devRef .tc main_v49)
    = shapeCast S1x128 (W (Proc.devRef .tc main_arg3)) shapeCasts_S128_S1x128 := by
  after_results_simp
  rfl

set_option maxHeartbeats 4000000 in
/-- The bias region's first 100000 rows, padded below with 2400 rows of a constant, for the next product. -/
theorem repadded1 (W : Valuation τ sig (Elt F)) : StableHlo.after hostOps2_1 (StableHlo.after hostOps2 W) (Proc.devRef .tc main_v52)
    = pad S102400x128 ![0, 0] ![2400, 0] ![0, 0]
        (extractStridedSlice S100000x128 ![0, 0] (W (Proc.devRef .tc main_v50)) slices_S106496x128_S100000x128_0_0)
        (sitofp .f32 (constantI S_ 32 0#32)) pads_S100000x128_S102400x128_024000_000 h_S_ := by
  after_results_simp
  simp only [TRef.toBuf, TRef.ofBuf, cast_eq]

set_option maxHeartbeats 4000000 in
/-- Layer 2's message passing as the host computes it from the contents `W` it starts from: the product's first 100000 rows
    are gathered at every edge's source (a negative index wrapped once, as the program spells it), scaled by the edge's weight
    and summed into the edge's target. -/
theorem aggregate2 (W : Valuation τ sig (Elt F)) : StableHlo.after hostOps3 W (Proc.devRef .tc main_v67)
    = Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 (W (Proc.devRef .tc main_v6)))
        (mulf
          (Host.gather gather_S100000x128_S1700000x1_S1700000x128_1_0_n_n_0_1_1128
            (extractStridedSlice S100000x128 ![0, 0] (W (Proc.devRef .tc main_v53)) slices_S102400x128_S100000x128_0_0)
            (broadcastInDim S1700000x1 ![0] bcast_S1700000_S1700000x1_0
              (select (cmpi .slt (W (Proc.devRef .tc main_v3)) (broadcastInDim S1700000 ![] bcast_S_S1700000 (constantI S_ 32 0#32)))
                (addi (W (Proc.devRef .tc main_v3)) (broadcastInDim S1700000 ![] bcast_S_S1700000 (constantI S_ 32 100000#32)))
                (W (Proc.devRef .tc main_v3)))))
          (broadcastInDim S1700000x128 ![0, 1] bcast_S1700000x1_S1700000x128_0_1
            (broadcastInDim S1700000x1 ![0] bcast_S1700000_S1700000x1_0 (W (Proc.devRef .tc main_v31))))) := by
  after_results_simp
  try rfl

set_option maxHeartbeats 4000000 in
/-- The aggregated array padded below with 6496 rows of a constant, for the region that adds the bias. -/
theorem padded2 (W : Valuation τ sig (Elt F)) : StableHlo.after hostOps3_2 (StableHlo.after hostOps3_1 W) (Proc.devRef .tc main_v68)
    = pad S106496x128 ![0, 0] ![6496, 0] ![0, 0] (W (Proc.devRef .tc main_v67)) (sitofp .f32 (W (Proc.devRef .tc main_c_16))) pads_S100000x128_S106496x128_064960_000 h_S_ := by
  after_results_simp
  simp only [TRef.toBuf, TRef.ofBuf, cast_eq]

set_option maxHeartbeats 4000000 in
/-- The bias as one row. -/
theorem biasRow2 (W : Valuation τ sig (Elt F)) : StableHlo.after hostOps3_2 (StableHlo.after hostOps3_1 W) (Proc.devRef .tc main_v69)
    = shapeCast S1x128 (W (Proc.devRef .tc main_arg5)) shapeCasts_S128_S1x128 := by
  after_results_simp
  rfl

set_option maxHeartbeats 4000000 in
/-- The bias region's first 100000 rows, padded below with 2400 rows of a constant, for the next product. -/
theorem repadded2 (W : Valuation τ sig (Elt F)) : StableHlo.after hostOps4_1 (StableHlo.after hostOps4 W) (Proc.devRef .tc main_v72)
    = pad S102400x128 ![0, 0] ![2400, 0] ![0, 0]
        (extractStridedSlice S100000x128 ![0, 0] (W (Proc.devRef .tc main_v70)) slices_S106496x128_S100000x128_0_0)
        (sitofp .f32 (constantI S_ 32 0#32)) pads_S100000x128_S102400x128_024000_000 h_S_ := by
  after_results_simp
  simp only [TRef.toBuf, TRef.ofBuf, cast_eq]

set_option maxHeartbeats 4000000 in
/-- Layer 3's message passing as the host computes it from the contents `W` it starts from: the product's first 100000 rows
    are gathered at every edge's source (a negative index wrapped once, as the program spells it), scaled by the edge's weight
    and summed into the edge's target. -/
theorem aggregate3 (W : Valuation τ sig (Elt F)) : StableHlo.after hostOps5 W (Proc.devRef .tc main_v87)
    = Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (W (Proc.devRef .tc main_v6)))
        (mulf
          (Host.gather gather_S100000x64_S1700000x1_S1700000x64_1_0_n_n_0_1_164
            (extractStridedSlice S100000x64 ![0, 0] (W (Proc.devRef .tc main_v73)) slices_S102400x64_S100000x64_0_0)
            (broadcastInDim S1700000x1 ![0] bcast_S1700000_S1700000x1_0
              (select (cmpi .slt (W (Proc.devRef .tc main_v3)) (broadcastInDim S1700000 ![] bcast_S_S1700000 (constantI S_ 32 0#32)))
                (addi (W (Proc.devRef .tc main_v3)) (broadcastInDim S1700000 ![] bcast_S_S1700000 (constantI S_ 32 100000#32)))
                (W (Proc.devRef .tc main_v3)))))
          (broadcastInDim S1700000x64 ![0, 1] bcast_S1700000x1_S1700000x64_0_1
            (broadcastInDim S1700000x1 ![0] bcast_S1700000_S1700000x1_0 (W (Proc.devRef .tc main_v31))))) := by
  after_results_simp
  try rfl

set_option maxHeartbeats 4000000 in
/-- The aggregated array padded below with 6496 rows of a constant, for the region that adds the bias. -/
theorem padded3 (W : Valuation τ sig (Elt F)) : StableHlo.after hostOps5_2 (StableHlo.after hostOps5_1 W) (Proc.devRef .tc main_v88)
    = pad S106496x64 ![0, 0] ![6496, 0] ![0, 0] (W (Proc.devRef .tc main_v87)) (sitofp .f32 (W (Proc.devRef .tc main_c_21))) pads_S100000x64_S106496x64_064960_000 h_S_ := by
  after_results_simp
  simp only [TRef.toBuf, TRef.ofBuf, cast_eq]

set_option maxHeartbeats 4000000 in
/-- The bias as one row. -/
theorem biasRow3 (W : Valuation τ sig (Elt F)) : StableHlo.after hostOps5_2 (StableHlo.after hostOps5_1 W) (Proc.devRef .tc main_v89)
    = shapeCast S1x64 (W (Proc.devRef .tc main_arg7)) shapeCasts_S64_S1x64 := by
  after_results_simp
  rfl

set_option maxHeartbeats 4000000 in
/-- The result: the last region's first 100000 rows. -/
theorem result_slice (W : Valuation τ sig (Elt F)) : StableHlo.after hostOps6 W (Proc.devRef .tc main_v91)
    = extractStridedSlice S100000x64 ![0, 0] (W (Proc.devRef .tc main_v90)) slices_S106496x64_S100000x64_0_0 := by
  after_results_simp

end Cert.KernelIdeal.Stretches

end
-- ==== Proof.LibPlainDot.lean ====
/-
  A plain matrix product read at an element, over the extended reals.

  For the dimension numbers "contract the left operand's axis 1 with the right operand's axis 0, no batch axis"
  (`DotDims.plain M K N`: an M×K array times a K×N array), the contraction position is one coordinate k < K, the left
  operand is read at (r, k) and the right at (k, c).  So the element (r, c) of the product — whether computed by the
  matrix unit into an accumulator of zeros or by the host's dot_general — is the finite sum  Σ_{k < K} lhs(r,k) · rhs(k,c).
  Nothing here depends on the extents, so the statement is for all M, K, N.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat}

/-- The left operand's row coordinate is the output's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- The right operand's column coordinate is the output's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The contraction sum of a plain product, re-indexed by the inner coordinate. -/
theorem sum_plain {φ₁ φ₂ : FTy} (lhs : FVec Ideal ⟨2, ![M, K]⟩ φ₁) (rhs : FVec Ideal ⟨2, ![K, N]⟩ φ₂) (r : Fin M) (c : Fin N) :
    ∑ q : (DotDims.plain M K N).contr.Idx,
        lhs ((DotDims.plain M K N).lhsIdx (ix2 r c) q) * rhs ((DotDims.plain M K N).rhsIdx (ix2 r c) q)
      = ∑ k : Fin K, lhs (ix2 r k) * rhs (ix2 k c) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx (ix2 r c) ((contrEquiv1 (DotDims.plain M K N) K hr hs).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K hr hs).symm k) = ix2 k c :=
    funext fun a => Fin.ext (by
      match a with
      | ⟨0, _⟩ => exact ((DotDims.plain M K N).rhsIdx_val_of_single rfl _ _).trans hk
      | ⟨1, _⟩ => exact rhs_col _ _)
  rw [el, er]

/-- A plain product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_plain lhs rhs r c)

/-- A plain product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (sum_plain lhs rhs r c)

end Cert.PlainDot

end
-- ==== Proof.MatSpec.lean ====
/-
  The kernel's three row-tiled matrix products as functions of whole arrays, and their agreement with the
  reference's products.

  Each of the three regions multiplies a 102400-row array A by a whole weight matrix B, 4096 rows at a time.  Row i
  of the result depends on row i of A only:  (A·B)(i, j) = Σ_k A(i,k) · B(k,j),  a sum of 128 products in the extended
  reals.  `rowsTimes` is that function of A and B for any extents; `rowsTimes128` and `rowsTimes64` are its two
  instances met here (a 128×128 and a 128×64 weight).

  The 102400-row array is the 100000-row activation with 2400 rows of padding below it, and only the first 100000
  rows of the product are kept.  Row r < 100000 of the padded array is row r of the activation, so the kept rows are
  exactly the rows of the unpadded product — which is the reference's dot_general (`slice_rowsTimes128_pad`,
  `slice_rowsTimes64_pad`): the padding value never enters a kept row.
-/
import proofs.«134931_j22728966931036_1_alg».proof.Proof.Gen.KernelIdeal
import proofs.«134931_j22728966931036_1_alg».proof.Proof.Gen.ReferenceIdeal
import proofs.«134931_j22728966931036_1_alg».proof.Proof.LibPlainDot
import Idealize.ShloMosaic.Lib.KernelVsHost
import Idealize.ShloMosaic.PureOps.Ideal

noncomputable section

open scoped BigOperators

namespace Cert.KernelIdeal.MatVal

open Idealize.ShloMosaic Idealize.ShloMosaic.ValueIdx
open Cert.KernelIdeal Cert.KernelIdeal.Facts₀

/-- The product of an M×K array by a K×N array, entry by entry: entry (i, j) is Σ_k A(i,k) · B(k,j). -/
def rowsTimes {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (n0 := M) (i 0) k) * B (ix2 (n1 := N) k (i 1))

/-- The product at the entry with coordinates (r, c). -/
theorem rowsTimes_apply {M K N : Nat} (A : (⟨2, ![M, K]⟩ : Shape).Idx → EReal) (B : (⟨2, ![K, N]⟩ : Shape).Idx → EReal)
    (r : Fin M) (c : Fin N) : rowsTimes A B (ix2 r c) = ∑ k : Fin K, A (ix2 r k) * B (ix2 k c) := rfl

/-- A 102400×128 array times a 128×128 weight. -/
abbrev rowsTimes128 (A : S102400x128.Idx → EReal) (B : S128x128.Idx → EReal) : S102400x128.Idx → EReal := rowsTimes A B

/-- A 102400×128 array times a 128×64 weight. -/
abbrev rowsTimes64 (A : S102400x128.Idx → EReal) (B : S128x64.Idx → EReal) : S102400x64.Idx → EReal := rowsTimes A B

/-- Padding below and slicing the padded rows off again commute with the product: the first M rows of
    (A padded to M' rows) · B are the rows of A · B, whatever the padding value. Stated for a padded array given as
    any function that agrees with `x` on the first M rows. -/
theorem rowsTimes_of_rows_eq {M M' K N : Nat} (hM : M ≤ M') (x : (⟨2, ![M, K]⟩ : Shape).Idx → EReal)
    (xp : (⟨2, ![M', K]⟩ : Shape).Idx → EReal) (w : (⟨2, ![K, N]⟩ : Shape).Idx → EReal)
    (hx : ∀ (r : Fin M) (k : Fin K), xp (ix2 (⟨r.val, Nat.lt_of_lt_of_le r.isLt hM⟩ : Fin M') k) = x (ix2 r k))
    (r : Fin M) (c : Fin N) :
    rowsTimes xp w (ix2 (⟨r.val, Nat.lt_of_lt_of_le r.isLt hM⟩ : Fin M') c) = rowsTimes x w (ix2 r c) := by
  rw [rowsTimes_apply, rowsTimes_apply]
  exact Finset.sum_congr rfl fun k _ => by rw [hx r k]

/-- Row r < 100000 of the activation padded with 2400 rows below is row r of the activation. -/
theorem pad_rows_apply (x : Vec Ideal S100000x128 .f32) (v : Vec Ideal S_ .f32) (r : Fin 100000) (k : Fin 128) :
    pad S102400x128 ![0, 0] ![2400, 0] ![0, 0] x v pads_S100000x128_S102400x128_024000_000 h_S_
        (ix2 (⟨r.val, Nat.lt_of_lt_of_le r.isLt (by decide)⟩ : Fin 102400) k) = x (ix2 r k) :=
  pad_apply_of_inside _ _ _ x v pads_S100000x128_S102400x128_024000_000 h_S_ _ (ix2 r k) fun a => by
    match a with
    | ⟨0, _⟩ => show r.val = 0 + r.val * (0 + 1); omega
    | ⟨1, _⟩ => show k.val = 0 + k.val * (0 + 1); omega

/-- REGIONS 0 AND 2 AGAINST THE REFERENCE: pad the activation to 102400 rows, multiply by the 128×128 weight, keep the
    first 100000 rows — that is the reference's dot_general of the activation and the weight. -/
theorem slice_rowsTimes128_pad (x : Vec Ideal S100000x128 .f32) (v : Vec Ideal S_ .f32) (w : Vec Ideal S128x128 .f32) :
    extractStridedSlice S100000x128 ![0, 0]
        (rowsTimes128 (pad S102400x128 ![0, 0] ![2400, 0] ![0, 0] x v pads_S100000x128_S102400x128_024000_000 h_S_) w)
        slices_S102400x128_S100000x128_0_0
      = Host.dotGeneral (F := Ideal) (φ₁ := .f32) (φ₂ := .f32) Cert.ReferenceIdeal.dot_S100000x128_S128x128_S100000x128_1_0_0_1_n_n none x w := by
  funext j
  obtain ⟨r, c, rfl⟩ : ∃ (r : Fin 100000) (c : Fin 128), j = ix2 r c := ⟨j 0, j 1, eq_ix2 j⟩
  refine (extractStridedSlice_apply _ _ slices_S102400x128_S100000x128_0_0 (ix2 r c)
    (ix2 (⟨r.val, Nat.lt_of_lt_of_le r.isLt (by decide)⟩ : Fin 102400) c) fun a => by
      match a with
      | ⟨0, _⟩ => show r.val = 0 + r.val; omega
      | ⟨1, _⟩ => show c.val = 0 + c.val; omega).trans ?_
  refine (rowsTimes_of_rows_eq (by decide) x _ w (pad_rows_apply x v) r c).trans ?_
  rw [rowsTimes_apply]
  exact (Cert.PlainDot.dotGeneral_apply (φ₁ := .f32) (φ₂ := .f32) (M := 100000) (K := 128) (N := 128) none .single x w r c).symm

/-- REGION 4 AGAINST THE REFERENCE: the same with the 128×64 weight. -/
theorem slice_rowsTimes64_pad (x : Vec Ideal S100000x128 .f32) (v : Vec Ideal S_ .f32) (w : Vec Ideal S128x64 .f32) :
    extractStridedSlice S100000x64 ![0, 0]
        (rowsTimes64 (pad S102400x128 ![0, 0] ![2400, 0] ![0, 0] x v pads_S100000x128_S102400x128_024000_000 h_S_) w)
        slices_S102400x64_S100000x64_0_0
      = Host.dotGeneral (F := Ideal) (φ₁ := .f32) (φ₂ := .f32) Cert.ReferenceIdeal.dot_S100000x128_S128x64_S100000x64_1_0_0_1_n_n none x w := by
  funext j
  obtain ⟨r, c, rfl⟩ : ∃ (r : Fin 100000) (c : Fin 64), j = ix2 r c := ⟨j 0, j 1, eq_ix2 j⟩
  refine (extractStridedSlice_apply _ _ slices_S102400x64_S100000x64_0_0 (ix2 r c)
    (ix2 (⟨r.val, Nat.lt_of_lt_of_le r.isLt (by decide)⟩ : Fin 102400) c) fun a => by
      match a with
      | ⟨0, _⟩ => show r.val = 0 + r.val; omega
      | ⟨1, _⟩ => show c.val = 0 + c.val; omega).trans ?_
  refine (rowsTimes_of_rows_eq (by decide) x _ w (pad_rows_apply x v) r c).trans ?_
  rw [rowsTimes_apply]
  exact (Cert.PlainDot.dotGeneral_apply (φ₁ := .f32) (φ₂ := .f32) (M := 100000) (K := 128) (N := 64) none .single x w r c).symm

end Cert.KernelIdeal.MatVal

end
-- ==== Proof.MatRegion0.lean ====
/-
  Region 0: the array main_v33 after the region's 25 grid points is the product of the arrays main_v32 and main_arg2 as the
  region finds them.

  The region walks the 102400 rows of main_v32 in 25 blocks of 4096 rows.  At grid point t it multiplies rows
  4096·t … 4096·t + 4095 by the whole 128×128 weight main_arg2 on the matrix unit, into an accumulator of zeros, and
  writes the 4096×128 result back as rows 4096·t … 4096·t + 4095 of main_v33.  Entry (p, q) of the block product is
  Σ_k X(p,k) · W(k,q); row p of the block is row 4096·t + p of the array and the weight is read whole, so the block
  written at point t is block t of the whole product `rowsTimes128`.  Row r lies in the block of point r / 4096, and
  25 · 4096 = 102400, so the blocks cover the array: after the last point the array is the product.
-/
import proofs.«134931_j22728966931036_1_alg».proof.Proof.Gen.KernelIdeal.Frame
import proofs.«134931_j22728966931036_1_alg».proof.Proof.MatSpec
import Idealize.ShloMosaic.Lib.Pipeline.Value

noncomputable section

open scoped BigOperators

namespace Cert.KernelIdeal.MatVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block offsets of the body's whole-block accesses are zero on both axes. -/
theorem zero_offsets0 : (![0, 0] : Fin 2 → Nat) = fun _ => 0 := funext fun a => by fin_cases a <;> rfl

/-- WHAT THE BODY LEAVES in the output block: the product of the row block by the weight, entry (p, q) being
    Σ_k X(p,k) · W(k,q) — the matrix unit's contraction into an accumulator of zeros. -/
theorem out0_2_eq (x0 : Vec Ideal S4096x128 .f32) (x1 : Vec Ideal S128x128 .f32) :
    Gen.out0_2 x0 x1 = rowsTimes x0 x1 := by
  unfold Gen.out0_2
  rw [View.canon_unit_zero zero_offsets0]
  simp only [View.ld_unit_zero (S := S4096x128) zero_offsets0, View.ld_unit_zero (S := S128x128) zero_offsets0]
  unfold Gen.k0_pay1
  dsimp only
  rw [shapeCast_self]
  funext j
  obtain ⟨p, q, rfl⟩ : ∃ (p : Fin 4096) (q : Fin 128), j = ix2 p q := ⟨j 0, j 1, eq_ix2 j⟩
  exact Cert.PlainDot.matmul_zero_apply (φ₁ := .f32) (φ₂ := .f32) (M := 4096) (K := 128) (N := 128) none x0 x1 p q

/-- The block indices over the grid: at point t the row block and the output block have index (t, 0), the weight's
    block index (0, 0). -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the arrays as the region finds them. -/
theorem written_back0 (c : Dev nD) (t : Fin cfg0.N) :
    (Gen.dat0 (F := Ideal) V c).flushed 2 t
      = ((cfg0.win 2).blk t).view.read (Elt Ideal) (rowsTimes128 (V c main_v32) (V c main_arg2)) := by
  show (cfg0.win 2).cut (grid0.coords t) ((Gen.dat0 (F := Ideal) V c).after 2 t) = _
  rw [Gen.after0_2, out0_2_eq]
  obtain ⟨e00, e01, e10, e11, e20, e21⟩ := block_indices0 t
  funext j
  show rowsTimes (Gen.iblk0 V c 0 t) (Gen.iblk0 V c 1 t) j
    = rowsTimes (V c main_v32) (V c main_arg2) (((cfg0.win 2).blk t).view.emb j)
  unfold rowsTimes
  refine Finset.sum_congr rfl fun k _ => ?_
  have h0 : Gen.iblk0 V c 0 t (ix2 (n0 := 4096) (j 0) k)
      = V c main_v32 (ix2 (n0 := 102400) ((((cfg0.win 2).blk t).view.emb j) 0) k) := by
    show V c main_v32 (((cfg0.win 0).blk t).view.emb (ix2 (n0 := 4096) (j 0) k)) = _
    refine congrArg _ (funext fun a => Fin.ext ?_)
    match a with
    | ⟨0, _⟩ =>
      show win0_0.index t (0 : Fin 2) * 4096 + 1 * (j 0).val = win0_2.index t (0 : Fin 2) * 4096 + 1 * (j 0).val
      omega
    | ⟨1, _⟩ => show win0_0.index t (1 : Fin 2) * 128 + 1 * k.val = k.val; omega
  have h1 : Gen.iblk0 V c 1 t (ix2 (n1 := 128) k (j 1))
      = V c main_arg2 (ix2 (n1 := 128) k ((((cfg0.win 2).blk t).view.emb j) 1)) := by
    show V c main_arg2 (((cfg0.win 1).blk t).view.emb (ix2 (n1 := 128) k (j 1))) = _
    refine congrArg _ (funext fun a => Fin.ext ?_)
    match a with
    | ⟨0, _⟩ => show win0_1.index t (0 : Fin 2) * 128 + 1 * k.val = k.val; omega
    | ⟨1, _⟩ =>
      show win0_1.index t (1 : Fin 2) * 128 + 1 * (j 1).val = win0_2.index t (1 : Fin 2) * 128 + 1 * (j 1).val
      omega
  exact congrArg₂ (· * ·) h0 h1

/-- An index of the output array is in point t's block iff each coordinate is in the block's range on its axis. -/
theorem mem_block0 (t : Fin cfg0.N) (i : S102400x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v33).slice (win0_2.rect t)).set ↔ _
  rw [View.set_slice_whole, Rect.mem_set_unit]
  exact Iff.rfl

/-- THE BLOCKS COVER THE ARRAY: row r is in the block of point r / 4096 (and 25 · 4096 = 102400). -/
theorem covered0 (i : S102400x128.Idx) :
    ∃ t : Fin cfg0.N, (cfg0.win 2).flush t = true ∧ i ∈ ((cfg0.win 2).blk t).view.set := by
  have hi0 : (i 0).val < 102400 := (i 0).isLt
  have hi1 : (i 1).val < 128 := (i 1).isLt
  have hN : cfg0.N = 25 := Gen.N_0
  obtain ⟨t, ht⟩ : ∃ t : Fin cfg0.N, t.val = (i 0).val / 4096 := ⟨⟨(i 0).val / 4096, by rw [hN]; omega⟩, rfl⟩
  obtain ⟨-, -, -, -, e20, e21⟩ := block_indices0 t
  refine ⟨t, Gen.flush0_2 t, ?_⟩
  rw [mem_block0]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- THE ARRAY AFTER THE REGION: the product of the two input arrays as the region finds them. -/
theorem region0_out (c : Dev nD) :
    (Gen.dat0 (F := Ideal) V c).arrAt 2 cfg0.N = rowsTimes128 (V c main_v32) (V c main_arg2) :=
  (Gen.dat0 (F := Ideal) V c).arrAt_eq_of_cover 2 (rowsTimes128 (V c main_v32) (V c main_arg2))
    (fun t _ => written_back0 V c t) covered0

end Cert.KernelIdeal.MatVal

end
-- ==== Proof.MatRegion2.lean ====
/-
  Region 2: the array main_v53 after the region's 25 grid points is the product of the arrays main_v52 and main_arg4 as the
  region finds them.

  The region walks the 102400 rows of main_v52 in 25 blocks of 4096 rows.  At grid point t it multiplies rows
  4096·t … 4096·t + 4095 by the whole 128×128 weight main_arg4 on the matrix unit, into an accumulator of zeros, and
  writes the 4096×128 result back as rows 4096·t … 4096·t + 4095 of main_v53.  Entry (p, q) of the block product is
  Σ_k X(p,k) · W(k,q); row p of the block is row 4096·t + p of the array and the weight is read whole, so the block
  written at point t is block t of the whole product `rowsTimes128`.  Row r lies in the block of point r / 4096, and
  25 · 4096 = 102400, so the blocks cover the array: after the last point the array is the product.
-/
import proofs.«134931_j22728966931036_1_alg».proof.Proof.Gen.KernelIdeal.Frame
import proofs.«134931_j22728966931036_1_alg».proof.Proof.MatSpec
import Idealize.ShloMosaic.Lib.Pipeline.Value

noncomputable section

open scoped BigOperators

namespace Cert.KernelIdeal.MatVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block offsets of the body's whole-block accesses are zero on both axes. -/
theorem zero_offsets2 : (![0, 0] : Fin 2 → Nat) = fun _ => 0 := funext fun a => by fin_cases a <;> rfl

/-- WHAT THE BODY LEAVES in the output block: the product of the row block by the weight, entry (p, q) being
    Σ_k X(p,k) · W(k,q) — the matrix unit's contraction into an accumulator of zeros. -/
theorem out2_2_eq (x0 : Vec Ideal S4096x128 .f32) (x1 : Vec Ideal S128x128 .f32) :
    Gen.out2_2 x0 x1 = rowsTimes x0 x1 := by
  unfold Gen.out2_2
  rw [View.canon_unit_zero zero_offsets2]
  simp only [View.ld_unit_zero (S := S4096x128) zero_offsets2, View.ld_unit_zero (S := S128x128) zero_offsets2]
  unfold Gen.k2_pay1
  dsimp only
  rw [shapeCast_self]
  funext j
  obtain ⟨p, q, rfl⟩ : ∃ (p : Fin 4096) (q : Fin 128), j = ix2 p q := ⟨j 0, j 1, eq_ix2 j⟩
  exact Cert.PlainDot.matmul_zero_apply (φ₁ := .f32) (φ₂ := .f32) (M := 4096) (K := 128) (N := 128) none x0 x1 p q

/-- The block indices over the grid: at point t the row block and the output block have index (t, 0), the weight's
    block index (0, 0). -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole product of the arrays as the region finds them. -/
theorem written_back2 (c : Dev nD) (t : Fin cfg2.N) :
    (Gen.dat2 (F := Ideal) V c).flushed 2 t
      = ((cfg2.win 2).blk t).view.read (Elt Ideal) (rowsTimes128 (V c main_v52) (V c main_arg4)) := by
  show (cfg2.win 2).cut (grid2.coords t) ((Gen.dat2 (F := Ideal) V c).after 2 t) = _
  rw [Gen.after2_2, out2_2_eq]
  obtain ⟨e00, e01, e10, e11, e20, e21⟩ := block_indices2 t
  funext j
  show rowsTimes (Gen.iblk2 V c 0 t) (Gen.iblk2 V c 1 t) j
    = rowsTimes (V c main_v52) (V c main_arg4) (((cfg2.win 2).blk t).view.emb j)
  unfold rowsTimes
  refine Finset.sum_congr rfl fun k _ => ?_
  have h0 : Gen.iblk2 V c 0 t (ix2 (n0 := 4096) (j 0) k)
      = V c main_v52 (ix2 (n0 := 102400) ((((cfg2.win 2).blk t).view.emb j) 0) k) := by
    show V c main_v52 (((cfg2.win 0).blk t).view.emb (ix2 (n0 := 4096) (j 0) k)) = _
    refine congrArg _ (funext fun a => Fin.ext ?_)
    match a with
    | ⟨0, _⟩ =>
      show win2_0.index t (0 : Fin 2) * 4096 + 1 * (j 0).val = win2_2.index t (0 : Fin 2) * 4096 + 1 * (j 0).val
      omega
    | ⟨1, _⟩ => show win2_0.index t (1 : Fin 2) * 128 + 1 * k.val = k.val; omega
  have h1 : Gen.iblk2 V c 1 t (ix2 (n1 := 128) k (j 1))
      = V c main_arg4 (ix2 (n1 := 128) k ((((cfg2.win 2).blk t).view.emb j) 1)) := by
    show V c main_arg4 (((cfg2.win 1).blk t).view.emb (ix2 (n1 := 128) k (j 1))) = _
    refine congrArg _ (funext fun a => Fin.ext ?_)
    match a with
    | ⟨0, _⟩ => show win2_1.index t (0 : Fin 2) * 128 + 1 * k.val = k.val; omega
    | ⟨1, _⟩ =>
      show win2_1.index t (1 : Fin 2) * 128 + 1 * (j 1).val = win2_2.index t (1 : Fin 2) * 128 + 1 * (j 1).val
      omega
  exact congrArg₂ (· * ·) h0 h1

/-- An index of the output array is in point t's block iff each coordinate is in the block's range on its axis. -/
theorem mem_block2 (t : Fin cfg2.N) (i : S102400x128.Idx) :
    i ∈ ((cfg2.win 2).blk t).view.set ↔ ∀ a : Fin 2, win2_2.index t a * S4096x128.size a ≤ (i a).val
      ∧ (i a).val < win2_2.index t a * S4096x128.size a + S4096x128.size a := by
  show i ∈ ((View.whole main_v53).slice (win2_2.rect t)).set ↔ _
  rw [View.set_slice_whole, Rect.mem_set_unit]
  exact Iff.rfl

/-- THE BLOCKS COVER THE ARRAY: row r is in the block of point r / 4096 (and 25 · 4096 = 102400). -/
theorem covered2 (i : S102400x128.Idx) :
    ∃ t : Fin cfg2.N, (cfg2.win 2).flush t = true ∧ i ∈ ((cfg2.win 2).blk t).view.set := by
  have hi0 : (i 0).val < 102400 := (i 0).isLt
  have hi1 : (i 1).val < 128 := (i 1).isLt
  have hN : cfg2.N = 25 := Gen.N_2
  obtain ⟨t, ht⟩ : ∃ t : Fin cfg2.N, t.val = (i 0).val / 4096 := ⟨⟨(i 0).val / 4096, by rw [hN]; omega⟩, rfl⟩
  obtain ⟨-, -, -, -, e20, e21⟩ := block_indices2 t
  refine ⟨t, Gen.flush2_2 t, ?_⟩
  rw [mem_block2]
  intro a
  match a with
  | ⟨0, _⟩ =>
    show win2_2.index t (0 : Fin 2) * 4096 ≤ (i 0).val ∧ (i 0).val < win2_2.index t (0 : Fin 2) * 4096 + 4096
    omega
  | ⟨1, _⟩ =>
    show win2_2.index t (1 : Fin 2) * 128 ≤ (i 1).val ∧ (i 1).val < win2_2.index t (1 : Fin 2) * 128 + 128
    omega

/-- THE ARRAY AFTER THE REGION: the product of the two input arrays as the region finds them. -/
theorem region2_out (c : Dev nD) :
    (Gen.dat2 (F := Ideal) V c).arrAt 2 cfg2.N = rowsTimes128 (V c main_v52) (V c main_arg4) :=
  (Gen.dat2 (F := Ideal) V c).arrAt_eq_of_cover 2 (rowsTimes128 (V c main_v52) (V c main_arg4))
    (fun t _ => written_back2 V c t) covered2

end Cert.KernelIdeal.MatVal

end
-- ==== Proof.MatRegion4.lean ====
/-
  Region 4: the array main_v73 after the region's 25 grid points is the product of the arrays main_v72 and main_arg6 as the
  region finds them.

  The region walks the 102400 rows of main_v72 in 25 blocks of 4096 rows.  At grid point t it multiplies rows
  4096·t … 4096·t + 4095 by the whole 128×64 weight main_arg6 on the matrix unit, into an accumulator of zeros, and
  writes the 4096×64 result back as rows 4096·t … 4096·t + 4095 of main_v73.  Entry (p, q) of the block product is
  Σ_k X(p,k) · W(k,q); row p of the block is row 4096·t + p of the array and the weight is read whole, so the block
  written at point t is block t of the whole product `rowsTimes64`.  Row r lies in the block of point r / 4096, and
  25 · 4096 = 102400, so the blocks cover the array: after the last point the array is the product.
-/
import proofs.«134931_j22728966931036_1_alg».proof.Proof.Gen.KernelIdeal.Frame
import proofs.«134931_j22728966931036_1_alg».proof.Proof.MatSpec
import Idealize.ShloMosaic.Lib.Pipeline.Value

noncomputable section

open scoped BigOperators

namespace Cert.KernelIdeal.MatVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block offsets of the body's whole-block accesses are zero on both axes. -/
theorem zero_offsets4 : (![0, 0] : Fin 2 → Nat) = fun _ => 0 := funext fun a => by fin_cases a <;> rfl

/-- WHAT THE BODY LEAVES in the output block: the product of the row block by the weight, entry (p, q) being
    Σ_k X(p,k) · W(k,q) — the matrix unit's contraction into an accumulator of zeros. -/
theorem out4_2_eq (x0 : Vec Ideal S4096x128 .f32) (x1 : Vec Ideal S128x64 .f32) :
    Gen.out4_2 x0 x1 = rowsTimes x0 x1 := by
  unfold Gen.out4_2
  rw [View.canon_unit_zero zero_offsets4]
  simp only [View.ld_unit_zero (S := S4096x128) zero_offsets4, View.ld_unit_zero (S := S128x64) zero_offsets4]
  unfold Gen.k4_pay1
  dsimp only
  rw [shapeCast_self]
  funext j
  obtain ⟨p, q, rfl⟩ : ∃ (p : Fin 4096) (q : Fin 64), j = ix2 p q := ⟨j 0, j 1, eq_ix2 j⟩
  exact Cert.PlainDot.matmul_zero_apply (φ₁ := .f32) (φ₂ := .f32) (M := 4096) (K := 128) (N := 64) none x0 x1 p q

/-- The block indices over the grid: at point t the row block and the output block have index (t, 0), the weight's
    block index (0, 0). -/
theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT t WRITES BACK is block t of the whole product of the arrays as the region finds them. -/
theorem written_back4 (c : Dev nD) (t : Fin cfg4.N) :
    (Gen.dat4 (F := Ideal) V c).flushed 2 t
      = ((cfg4.win 2).blk t).view.read (Elt Ideal) (rowsTimes64 (V c main_v72) (V c main_arg6)) := by
  show (cfg4.win 2).cut (grid4.coords t) ((Gen.dat4 (F := Ideal) V c).after 2 t) = _
  rw [Gen.after4_2, out4_2_eq]
  obtain ⟨e00, e01, e10, e11, e20, e21⟩ := block_indices4 t
  funext j
  show rowsTimes (Gen.iblk4 V c 0 t) (Gen.iblk4 V c 1 t) j
    = rowsTimes (V c main_v72) (V c main_arg6) (((cfg4.win 2).blk t).view.emb j)
  unfold rowsTimes
  refine Finset.sum_congr rfl fun k _ => ?_
  have h0 : Gen.iblk4 V c 0 t (ix2 (n0 := 4096) (j 0) k)
      = V c main_v72 (ix2 (n0 := 102400) ((((cfg4.win 2).blk t).view.emb j) 0) k) := by
    show V c main_v72 (((cfg4.win 0).blk t).view.emb (ix2 (n0 := 4096) (j 0) k)) = _
    refine congrArg _ (funext fun a => Fin.ext ?_)
    match a with
    | ⟨0, _⟩ =>
      show win4_0.index t (0 : Fin 2) * 4096 + 1 * (j 0).val = win4_2.index t (0 : Fin 2) * 4096 + 1 * (j 0).val
      omega
    | ⟨1, _⟩ => show win4_0.index t (1 : Fin 2) * 128 + 1 * k.val = k.val; omega
  have h1 : Gen.iblk4 V c 1 t (ix2 (n1 := 64) k (j 1))
      = V c main_arg6 (ix2 (n1 := 64) k ((((cfg4.win 2).blk t).view.emb j) 1)) := by
    show V c main_arg6 (((cfg4.win 1).blk t).view.emb (ix2 (n1 := 64) k (j 1))) = _
    refine congrArg _ (funext fun a => Fin.ext ?_)
    match a with
    | ⟨0, _⟩ => show win4_1.index t (0 : Fin 2) * 128 + 1 * k.val = k.val; omega
    | ⟨1, _⟩ =>
      show win4_1.index t (1 : Fin 2) * 64 + 1 * (j 1).val = win4_2.index t (1 : Fin 2) * 64 + 1 * (j 1).val
      omega
  exact congrArg₂ (· * ·) h0 h1

/-- An index of the output array is in point t's block iff each coordinate is in the block's range on its axis. -/
theorem mem_block4 (t : Fin cfg4.N) (i : S102400x64.Idx) :
    i ∈ ((cfg4.win 2).blk t).view.set ↔ ∀ a : Fin 2, win4_2.index t a * S4096x64.size a ≤ (i a).val
      ∧ (i a).val < win4_2.index t a * S4096x64.size a + S4096x64.size a := by
  show i ∈ ((View.whole main_v73).slice (win4_2.rect t)).set ↔ _
  rw [View.set_slice_whole, Rect.mem_set_unit]
  exact Iff.rfl

/-- THE BLOCKS COVER THE ARRAY: row r is in the block of point r / 4096 (and 25 · 4096 = 102400). -/
theorem covered4 (i : S102400x64.Idx) :
    ∃ t : Fin cfg4.N, (cfg4.win 2).flush t = true ∧ i ∈ ((cfg4.win 2).blk t).view.set := by
  have hi0 : (i 0).val < 102400 := (i 0).isLt
  have hi1 : (i 1).val < 64 := (i 1).isLt
  have hN : cfg4.N = 25 := Gen.N_4
  obtain ⟨t, ht⟩ : ∃ t : Fin cfg4.N, t.val = (i 0).val / 4096 := ⟨⟨(i 0).val / 4096, by rw [hN]; omega⟩, rfl⟩
  obtain ⟨-, -, -, -, e20, e21⟩ := block_indices4 t
  refine ⟨t, Gen.flush4_2 t, ?_⟩
  rw [mem_block4]
  intro a
  match a with
  | ⟨0, _⟩ =>
    show win4_2.index t (0 : Fin 2) * 4096 ≤ (i 0).val ∧ (i 0).val < win4_2.index t (0 : Fin 2) * 4096 + 4096
    omega
  | ⟨1, _⟩ =>
    show win4_2.index t (1 : Fin 2) * 64 ≤ (i 1).val ∧ (i 1).val < win4_2.index t (1 : Fin 2) * 64 + 64
    omega

/-- THE ARRAY AFTER THE REGION: the product of the two input arrays as the region finds them. -/
theorem region4_out (c : Dev nD) :
    (Gen.dat4 (F := Ideal) V c).arrAt 2 cfg4.N = rowsTimes64 (V c main_v72) (V c main_arg6) :=
  (Gen.dat4 (F := Ideal) V c).arrAt_eq_of_cover 2 (rowsTimes64 (V c main_v72) (V c main_arg6))
    (fun t _ => written_back4 V c t) covered4

end Cert.KernelIdeal.MatVal

end
-- ==== Proof.QuantSpec.lean ====
import proofs.«134931_j22728966931036_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

/-! # The bias / activation / quantisation stage as a pointwise function

Each of the three stages adds a bias row to every row of an array, optionally takes the positive part,
clips to [-127/128, 127/128], and rounds to the nearest multiple of 1/128 (ties to even): one scalar
function applied index by index. -/

noncomputable section

namespace Cert.KernelIdeal.QuantVal

open Cert.KernelIdeal Cert.KernelIdeal.Gen Idealize.ShloMosaic Idealize.ShloMosaic.TcCoe Idealize.SL.Sem
open Idealize.ShloMosaic.ValueIdx

/-- Clip to [-127/128, 127/128], scale by 128, round half to even, scale back: the scalar quantiser. -/
def quantize (x : Ideal .f32) : Ideal .f32 :=
  FloatOps.divf
    (FloatOps.roundeven
      (FloatOps.mulf
        (FloatOps.minimumf (Scalar.ofBits .f32 0x3F7E0000#32)
          (FloatOps.maximumf (Scalar.ofBits .f32 0xBF7E0000#32) x))
        (Scalar.ofBits .f32 0x43000000#32)))
    (Scalar.ofBits .f32 0x43000000#32)

/-- Bias, positive part, quantise: entry (r, c) of the result is from entry (r, c) of `A` and entry (0, c) of the bias row. -/
def quantRelu128 (A : S106496x128.Idx → Ideal .f32) (b : S1x128.Idx → Ideal .f32) : S106496x128.Idx → Ideal .f32 :=
  fun i => quantize (FloatOps.maximumf (FloatOps.addf (A i) (b (ix2 (0 : Fin 1) (i 1)))) (Scalar.ofBits .f32 0x00000000#32))

/-- Bias and quantise (no positive part), 64 columns. -/
def quant64 (A : S106496x64.Idx → Ideal .f32) (b : S1x64.Idx → Ideal .f32) : S106496x64.Idx → Ideal .f32 :=
  fun i => quantize (FloatOps.addf (A i) (b (ix2 (0 : Fin 1) (i 1))))

/-- The origin of a block written as the constant zero offset. -/
theorem originZero : (![0, 0] : Fin 2 → Nat) = fun _ => 0 := funext fun a => by fin_cases a <;> rfl

/-- The first stage's stored value at an index of the block: the scalar chain of the block's entry and the bias row's. -/
theorem pay1_apply (x0 : Vec Ideal S8192x128 .f32) (x1 : Vec Ideal S1x128 .f32) (j : S8192x128.Idx) :
    k1_pay1 x0 x1 j = quantize (FloatOps.maximumf (FloatOps.addf (x0 j) (x1 (ix2 (0 : Fin 1) (j 1)))) (Scalar.ofBits .f32 0x00000000#32)) := by
  have hb : broadcastTo S8192x128 (shapeCast S1x128 x1 shapeCasts_S1x128_S1x128) broadcasts_S1x128_S8192x128 j = x1 (ix2 (0 : Fin 1) (j 1)) := by
    rw [shapeCast_self]
    conv_lhs => rw [eq_ix2 j]
    exact broadcastTo_1b_ab_apply x1 broadcasts_S1x128_S8192x128 (j 0) (j 1)
  show quantize (FloatOps.maximumf (FloatOps.addf (shapeCast S8192x128 x0 shapeCasts_S8192x128_S8192x128 j) (broadcastTo S8192x128 (shapeCast S1x128 x1 shapeCasts_S1x128_S1x128) broadcasts_S1x128_S8192x128 j)) (Scalar.ofBits .f32 0x00000000#32)) = _
  rw [hb, shapeCast_self]

/-- The second stage's stored value at an index of the block: the same chain. -/
theorem pay3_apply (x0 : Vec Ideal S8192x128 .f32) (x1 : Vec Ideal S1x128 .f32) (j : S8192x128.Idx) :
    k3_pay1 x0 x1 j = quantize (FloatOps.maximumf (FloatOps.addf (x0 j) (x1 (ix2 (0 : Fin 1) (j 1)))) (Scalar.ofBits .f32 0x00000000#32)) := by
  have hb : broadcastTo S8192x128 (shapeCast S1x128 x1 shapeCasts_S1x128_S1x128) broadcasts_S1x128_S8192x128 j = x1 (ix2 (0 : Fin 1) (j 1)) := by
    rw [shapeCast_self]
    conv_lhs => rw [eq_ix2 j]
    exact broadcastTo_1b_ab_apply x1 broadcasts_S1x128_S8192x128 (j 0) (j 1)
  show quantize (FloatOps.maximumf (FloatOps.addf (shapeCast S8192x128 x0 shapeCasts_S8192x128_S8192x128 j) (broadcastTo S8192x128 (shapeCast S1x128 x1 shapeCasts_S1x128_S1x128) broadcasts_S1x128_S8192x128 j)) (Scalar.ofBits .f32 0x00000000#32)) = _
  rw [hb, shapeCast_self]

/-- The third stage's stored value at an index of the block: bias and quantiser, no positive part. -/
theorem pay5_apply (x0 : Vec Ideal S8192x64 .f32) (x1 : Vec Ideal S1x64 .f32) (j : S8192x64.Idx) :
    k5_pay1 x0 x1 j = quantize (FloatOps.addf (x0 j) (x1 (ix2 (0 : Fin 1) (j 1)))) := by
  have hb : broadcastTo S8192x64 (shapeCast S1x64 x1 shapeCasts_S1x64_S1x64) broadcasts_S1x64_S8192x64 j = x1 (ix2 (0 : Fin 1) (j 1)) := by
    rw [shapeCast_self]
    conv_lhs => rw [eq_ix2 j]
    exact broadcastTo_1b_ab_apply x1 broadcasts_S1x64_S8192x64 (j 0) (j 1)
  show quantize (FloatOps.addf (shapeCast S8192x64 x0 shapeCasts_S8192x64_S8192x64 j) (broadcastTo S8192x64 (shapeCast S1x64 x1 shapeCasts_S1x64_S1x64) broadcasts_S1x64_S8192x64 j)) = _
  rw [hb, shapeCast_self]

end Cert.KernelIdeal.QuantVal

end
-- ==== Proof.QuantRegion1.lean ====
import proofs.«134931_j22728966931036_1_alg».proof.Proof.QuantSpec

/-! # Region 1: the output array of the first bias / quantisation stage

The stage runs over 13 row blocks of 8192 rows. Block `t` of the output is the pointwise stage applied to block `t` of
the input array and the whole bias row; the blocks tile the 106496 rows, so the output array is the pointwise stage of the
two input arrays. -/

noncomputable section

namespace Cert.KernelIdeal.QuantVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The row-block index maps over the grid: the input block moves with the output block, the bias row's block is always
    the whole row, and the output's block indices stay in range. -/
theorem blockIdx1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 12
    ∧ win1_2.index t (1 : Fin 2) = 0 :=
  (by decide +kernel : ∀ t : Fin grid1.N, _)

/-- Every row block is some grid point's. -/
theorem blockOnto1 : ∀ q : Fin 13, ∃ t : Fin cfg1.N, win1_2.index t = ![q.val, 0] :=
  (by decide +kernel : ∀ q : Fin 13, ∃ t : Fin grid1.N, win1_2.index t = ![q.val, 0])

/-- What grid point `t` writes back is block `t` of the pointwise stage of the two input arrays. -/
theorem flushed1_eq (c : Dev nD) (t : Fin cfg1.N) :
    (dat1 (F := Ideal) V c).flushed 2 t
      = ((cfg1.win 2).blk t).view.read (Elt Ideal) (quantRelu128 (V c main_v48) (V c main_v49)) := by
  show (cfg1.win 2).cut (grid1.coords t) ((dat1 V c).after 2 t) = _
  rw [after1_2]
  unfold out1_2
  rw [View.canon_unit_zero originZero]
  simp only [View.ld_unit_zero (S := S8192x128) originZero, View.ld_unit_zero (S := S1x128) originZero]
  obtain ⟨e0, e1, e2, e3, e4, e5⟩ := blockIdx1 t
  funext j
  show k1_pay1 (iblk1 V c 0 t) (iblk1 V c 1 t) j = quantRelu128 (V c main_v48) (V c main_v49) (((cfg1.win 2).blk t).view.emb j)
  rw [pay1_apply]
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; rw [e0]
    | ⟨1, _⟩ => show win1_0.index t (1 : Fin 2) * 128 + 1 * (j 1).val = win1_2.index t (1 : Fin 2) * 128 + 1 * (j 1).val; rw [e1]
  have h1 : ((cfg1.win 1).blk t).view.emb (ix2 (0 : Fin 1) (j 1))
      = ix2 (0 : Fin 1) ((((cfg1.win 2).blk t).view.emb j) 1) := by
    funext a; apply Fin.ext
    match a with
    | ⟨0, _⟩ => show win1_1.index t (0 : Fin 2) * 1 + 1 * 0 = 0; rw [e2]
    | ⟨1, _⟩ => show win1_1.index t (1 : Fin 2) * 128 + 1 * (j 1).val = win1_2.index t (1 : Fin 2) * 128 + 1 * (j 1).val; rw [e3, e5]
  show (fun x y => quantize (FloatOps.maximumf (FloatOps.addf x y) (Scalar.ofBits .f32 0x00000000#32))) (V c main_v48 (((cfg1.win 0).blk t).view.emb j)) (V c main_v49 (((cfg1.win 1).blk t).view.emb (ix2 (0 : Fin 1) (j 1))))
    = (fun x y => quantize (FloatOps.maximumf (FloatOps.addf x y) (Scalar.ofBits .f32 0x00000000#32))) (V c main_v48 (((cfg1.win 2).blk t).view.emb j)) (V c main_v49 (ix2 (0 : Fin 1) ((((cfg1.win 2).blk t).view.emb j) 1)))
  rw [h0, h1]
  rfl

/-- An index of the array is in grid point `t`'s block iff each coordinate is in the block's range on its axis. -/
theorem mem_block1 (t : Fin cfg1.N) (i : S106496x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v50).slice (win1_2.rect t)).set ↔ _
  rw [View.set_slice_whole, Rect.mem_set_unit]
  exact Iff.rfl

/-- Every index of the array is in some grid point's block: row `r` lies in block `r / 8192`. -/
theorem covered1 (i : S106496x128.Idx) :
    ∃ t : Fin cfg1.N, (cfg1.win 2).flush t = true ∧ i ∈ ((cfg1.win 2).blk t).view.set := by
  have hi0 : (i 0).val < 106496 := (i 0).isLt
  have hi1 : (i 1).val < 128 := (i 1).isLt
  obtain ⟨t, ht⟩ := blockOnto1 ⟨(i 0).val / 8192, by omega⟩
  have q0 : win1_2.index t (0 : Fin 2) = (i 0).val / 8192 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- The output array after the region: the pointwise stage of the two input arrays as the region finds them. -/
theorem region1_out (c : Dev nD) :
    (dat1 (F := Ideal) V c).arrAt 2 cfg1.N = quantRelu128 (V c main_v48) (V c main_v49) :=
  (dat1 (F := Ideal) V c).arrAt_eq_of_cover 2 _ (fun t _ => flushed1_eq V c t) (covered1)

end Cert.KernelIdeal.QuantVal

end
-- ==== Proof.QuantRegion3.lean ====
import proofs.«134931_j22728966931036_1_alg».proof.Proof.QuantSpec

/-! # Region 3: the output array of the second bias / quantisation stage

The stage runs over 13 row blocks of 8192 rows. Block `t` of the output is the pointwise stage applied to block `t` of
the input array and the whole bias row; the blocks tile the 106496 rows, so the output array is the pointwise stage of the
two input arrays. -/

noncomputable section

namespace Cert.KernelIdeal.QuantVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The row-block index maps over the grid: the input block moves with the output block, the bias row's block is always
    the whole row, and the output's block indices stay in range. -/
theorem blockIdx3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 12
    ∧ win3_2.index t (1 : Fin 2) = 0 :=
  (by decide +kernel : ∀ t : Fin grid3.N, _)

/-- Every row block is some grid point's. -/
theorem blockOnto3 : ∀ q : Fin 13, ∃ t : Fin cfg3.N, win3_2.index t = ![q.val, 0] :=
  (by decide +kernel : ∀ q : Fin 13, ∃ t : Fin grid3.N, win3_2.index t = ![q.val, 0])

/-- What grid point `t` writes back is block `t` of the pointwise stage of the two input arrays. -/
theorem flushed3_eq (c : Dev nD) (t : Fin cfg3.N) :
    (dat3 (F := Ideal) V c).flushed 2 t
      = ((cfg3.win 2).blk t).view.read (Elt Ideal) (quantRelu128 (V c main_v68) (V c main_v69)) := by
  show (cfg3.win 2).cut (grid3.coords t) ((dat3 V c).after 2 t) = _
  rw [after3_2]
  unfold out3_2
  rw [View.canon_unit_zero originZero]
  simp only [View.ld_unit_zero (S := S8192x128) originZero, View.ld_unit_zero (S := S1x128) originZero]
  obtain ⟨e0, e1, e2, e3, e4, e5⟩ := blockIdx3 t
  funext j
  show k3_pay1 (iblk3 V c 0 t) (iblk3 V c 1 t) j = quantRelu128 (V c main_v68) (V c main_v69) (((cfg3.win 2).blk t).view.emb j)
  rw [pay3_apply]
  have h0 : ((cfg3.win 0).blk t).view.emb j = ((cfg3.win 2).blk t).view.emb j := by
    funext a; apply Fin.ext
    match a with
    | ⟨0, _⟩ => show win3_0.index t (0 : Fin 2) * 8192 + 1 * (j 0).val = win3_2.index t (0 : Fin 2) * 8192 + 1 * (j 0).val; rw [e0]
    | ⟨1, _⟩ => show win3_0.index t (1 : Fin 2) * 128 + 1 * (j 1).val = win3_2.index t (1 : Fin 2) * 128 + 1 * (j 1).val; rw [e1]
  have h1 : ((cfg3.win 1).blk t).view.emb (ix2 (0 : Fin 1) (j 1))
      = ix2 (0 : Fin 1) ((((cfg3.win 2).blk t).view.emb j) 1) := by
    funext a; apply Fin.ext
    match a with
    | ⟨0, _⟩ => show win3_1.index t (0 : Fin 2) * 1 + 1 * 0 = 0; rw [e2]
    | ⟨1, _⟩ => show win3_1.index t (1 : Fin 2) * 128 + 1 * (j 1).val = win3_2.index t (1 : Fin 2) * 128 + 1 * (j 1).val; rw [e3, e5]
  show (fun x y => quantize (FloatOps.maximumf (FloatOps.addf x y) (Scalar.ofBits .f32 0x00000000#32))) (V c main_v68 (((cfg3.win 0).blk t).view.emb j)) (V c main_v69 (((cfg3.win 1).blk t).view.emb (ix2 (0 : Fin 1) (j 1))))
    = (fun x y => quantize (FloatOps.maximumf (FloatOps.addf x y) (Scalar.ofBits .f32 0x00000000#32))) (V c main_v68 (((cfg3.win 2).blk t).view.emb j)) (V c main_v69 (ix2 (0 : Fin 1) ((((cfg3.win 2).blk t).view.emb j) 1)))
  rw [h0, h1]
  rfl

/-- An index of the array is in grid point `t`'s block iff each coordinate is in the block's range on its axis. -/
theorem mem_block3 (t : Fin cfg3.N) (i : S106496x128.Idx) :
    i ∈ ((cfg3.win 2).blk t).view.set ↔ ∀ a : Fin 2, win3_2.index t a * S8192x128.size a ≤ (i a).val ∧ (i a).val < win3_2.index t a * S8192x128.size a + S8192x128.size a := by
  show i ∈ ((View.whole main_v70).slice (win3_2.rect t)).set ↔ _
  rw [View.set_slice_whole, Rect.mem_set_unit]
  exact Iff.rfl

/-- Every index of the array is in some grid point's block: row `r` lies in block `r / 8192`. -/
theorem covered3 (i : S106496x128.Idx) :
    ∃ t : Fin cfg3.N, (cfg3.win 2).flush t = true ∧ i ∈ ((cfg3.win 2).blk t).view.set := by
  have hi0 : (i 0).val < 106496 := (i 0).isLt
  have hi1 : (i 1).val < 128 := (i 1).isLt
  obtain ⟨t, ht⟩ := blockOnto3 ⟨(i 0).val / 8192, by omega⟩
  have q0 : win3_2.index t (0 : Fin 2) = (i 0).val / 8192 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 128 ≤ (i 1).val ∧ (i 1).val < win3_2.index t (1 : Fin 2) * 128 + 128; omega

/-- The output array after the region: the pointwise stage of the two input arrays as the region finds them. -/
theorem region3_out (c : Dev nD) :
    (dat3 (F := Ideal) V c).arrAt 2 cfg3.N = quantRelu128 (V c main_v68) (V c main_v69) :=
  (dat3 (F := Ideal) V c).arrAt_eq_of_cover 2 _ (fun t _ => flushed3_eq V c t) (covered3)

end Cert.KernelIdeal.QuantVal

end
-- ==== Proof.QuantRegion5.lean ====
import proofs.«134931_j22728966931036_1_alg».proof.Proof.QuantSpec

/-! # Region 5: the output array of the third bias / quantisation stage

The stage runs over 13 row blocks of 8192 rows. Block `t` of the output is the pointwise stage applied to block `t` of
the input array and the whole bias row; the blocks tile the 106496 rows, so the output array is the pointwise stage of the
two input arrays. -/

noncomputable section

namespace Cert.KernelIdeal.QuantVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The row-block index maps over the grid: the input block moves with the output block, the bias row's block is always
    the whole row, and the output's block indices stay in range. -/
theorem blockIdx5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) ≤ 12
    ∧ win5_2.index t (1 : Fin 2) = 0 :=
  (by decide +kernel : ∀ t : Fin grid5.N, _)

/-- Every row block is some grid point's. -/
theorem blockOnto5 : ∀ q : Fin 13, ∃ t : Fin cfg5.N, win5_2.index t = ![q.val, 0] :=
  (by decide +kernel : ∀ q : Fin 13, ∃ t : Fin grid5.N, win5_2.index t = ![q.val, 0])

/-- What grid point `t` writes back is block `t` of the pointwise stage of the two input arrays. -/
theorem flushed5_eq (c : Dev nD) (t : Fin cfg5.N) :
    (dat5 (F := Ideal) V c).flushed 2 t
      = ((cfg5.win 2).blk t).view.read (Elt Ideal) (quant64 (V c main_v88) (V c main_v89)) := by
  show (cfg5.win 2).cut (grid5.coords t) ((dat5 V c).after 2 t) = _
  rw [after5_2]
  unfold out5_2
  rw [View.canon_unit_zero originZero]
  simp only [View.ld_unit_zero (S := S8192x64) originZero, View.ld_unit_zero (S := S1x64) originZero]
  obtain ⟨e0, e1, e2, e3, e4, e5⟩ := blockIdx5 t
  funext j
  show k5_pay1 (iblk5 V c 0 t) (iblk5 V c 1 t) j = quant64 (V c main_v88) (V c main_v89) (((cfg5.win 2).blk t).view.emb j)
  rw [pay5_apply]
  have h0 : ((cfg5.win 0).blk t).view.emb j = ((cfg5.win 2).blk t).view.emb j := by
    funext a; apply Fin.ext
    match a with
    | ⟨0, _⟩ => show win5_0.index t (0 : Fin 2) * 8192 + 1 * (j 0).val = win5_2.index t (0 : Fin 2) * 8192 + 1 * (j 0).val; rw [e0]
    | ⟨1, _⟩ => show win5_0.index t (1 : Fin 2) * 64 + 1 * (j 1).val = win5_2.index t (1 : Fin 2) * 64 + 1 * (j 1).val; rw [e1]
  have h1 : ((cfg5.win 1).blk t).view.emb (ix2 (0 : Fin 1) (j 1))
      = ix2 (0 : Fin 1) ((((cfg5.win 2).blk t).view.emb j) 1) := by
    funext a; apply Fin.ext
    match a with
    | ⟨0, _⟩ => show win5_1.index t (0 : Fin 2) * 1 + 1 * 0 = 0; rw [e2]
    | ⟨1, _⟩ => show win5_1.index t (1 : Fin 2) * 64 + 1 * (j 1).val = win5_2.index t (1 : Fin 2) * 64 + 1 * (j 1).val; rw [e3, e5]
  show (fun x y => quantize (FloatOps.addf x y)) (V c main_v88 (((cfg5.win 0).blk t).view.emb j)) (V c main_v89 (((cfg5.win 1).blk t).view.emb (ix2 (0 : Fin 1) (j 1))))
    = (fun x y => quantize (FloatOps.addf x y)) (V c main_v88 (((cfg5.win 2).blk t).view.emb j)) (V c main_v89 (ix2 (0 : Fin 1) ((((cfg5.win 2).blk t).view.emb j) 1)))
  rw [h0, h1]
  rfl

/-- An index of the array is in grid point `t`'s block iff each coordinate is in the block's range on its axis. -/
theorem mem_block5 (t : Fin cfg5.N) (i : S106496x64.Idx) :
    i ∈ ((cfg5.win 2).blk t).view.set ↔ ∀ a : Fin 2, win5_2.index t a * S8192x64.size a ≤ (i a).val ∧ (i a).val < win5_2.index t a * S8192x64.size a + S8192x64.size a := by
  show i ∈ ((View.whole main_v90).slice (win5_2.rect t)).set ↔ _
  rw [View.set_slice_whole, Rect.mem_set_unit]
  exact Iff.rfl

/-- Every index of the array is in some grid point's block: row `r` lies in block `r / 8192`. -/
theorem covered5 (i : S106496x64.Idx) :
    ∃ t : Fin cfg5.N, (cfg5.win 2).flush t = true ∧ i ∈ ((cfg5.win 2).blk t).view.set := by
  have hi0 : (i 0).val < 106496 := (i 0).isLt
  have hi1 : (i 1).val < 64 := (i 1).isLt
  obtain ⟨t, ht⟩ := blockOnto5 ⟨(i 0).val / 8192, by omega⟩
  have q0 : win5_2.index t (0 : Fin 2) = (i 0).val / 8192 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 8192 ≤ (i 0).val ∧ (i 0).val < win5_2.index t (0 : Fin 2) * 8192 + 8192; omega
  | ⟨1, _⟩ => show win5_2.index t (1 : Fin 2) * 64 ≤ (i 1).val ∧ (i 1).val < win5_2.index t (1 : Fin 2) * 64 + 64; omega

/-- The output array after the region: the pointwise stage of the two input arrays as the region finds them. -/
theorem region5_out (c : Dev nD) :
    (dat5 (F := Ideal) V c).arrAt 2 cfg5.N = quant64 (V c main_v88) (V c main_v89) :=
  (dat5 (F := Ideal) V c).arrAt_eq_of_cover 2 _ (fun t _ => flushed5_eq V c t) (covered5)

end Cert.KernelIdeal.QuantVal

end
-- ==== Proof.QuantRef.lean ====
import proofs.«134931_j22728966931036_1_alg».proof.Proof.QuantSpec
import proofs.«134931_j22728966931036_1_alg».proof.Proof.RefRead
import Idealize.ShloMosaic.Lib.KernelVsHost

/-! # The bias / quantisation stage on a padded array against the reference's host operations

The kernel pads the 100000-row array to 106496 rows, applies the pointwise stage, and slices the first 100000 rows off. Row
`r < 100000` of the padded array is row `r` of the array and the reshaped bias at (0, c) is the bias at `c`, so the
result is the same pointwise stage of the unpadded array — which is the reference's chain of host operations, since at
the exact instance the host's rounding and division are the kernel's. -/

noncomputable section

namespace Cert.KernelIdeal.QuantVal

open Cert.KernelIdeal Idealize.ShloMosaic Idealize.ShloMosaic.TcCoe Idealize.SL.Sem
open Idealize.ShloMosaic.ValueIdx
open Cert.ReferenceIdeal.ReadP

/-- Bias, positive part, quantise on the unpadded array with the bias as a vector. -/
def refQuantRelu128 (a : S100000x128.Idx → Ideal .f32) (b : S128.Idx → Ideal .f32) : S100000x128.Idx → Ideal .f32 :=
  fun i => quantize (FloatOps.maximumf (FloatOps.addf (a i) (b (ix1 (i 1)))) (Scalar.ofBits .f32 0x00000000#32))

/-- Bias and quantise (no positive part) on the unpadded 64-column array with the bias as a vector. -/
def refQuant64 (a : S100000x64.Idx → Ideal .f32) (b : S64.Idx → Ideal .f32) : S100000x64.Idx → Ideal .f32 :=
  fun i => quantize (FloatOps.addf (a i) (b (ix1 (i 1))))

/-- At the exact instance the host's rounding and division are the kernel's: the host chain from the clip on is the
    quantiser. -/
theorem quantize_host (x : Ideal .f32) :
    FloatOps.hostDivf (FloatOps.hostUnary .roundeven (FloatOps.mulf (FloatOps.minimumf (FloatOps.ofBits .f32 0x3F7E0000#32)
      (FloatOps.maximumf (FloatOps.ofBits .f32 0xBF7E0000#32) x)) (FloatOps.ofBits .f32 0x43000000#32))) (FloatOps.ofBits .f32 0x43000000#32)
      = quantize x := rfl

/-- Pad with 6496 rows, apply the stage with the bias reshaped to a row, slice the first 100000 rows: the stage of the
    unpadded array, whatever the padding value. -/
theorem slice_quantRelu128_pad (a : S100000x128.Idx → Ideal .f32) (b : S128.Idx → Ideal .f32) (v : Vec Ideal S_ .f32)
    (hp : S100000x128.Pads (![0, 0] : Fin 2 → Nat) ![6496, 0] ![0, 0] S106496x128) (hu : 0 < S_.numel)
    (hc : S128.ShapeCasts S1x128) (hs : S106496x128.Slices ![0, 0] S100000x128) :
    extractStridedSlice S100000x128 ![0, 0]
        (quantRelu128 (pad S106496x128 ![0, 0] ![6496, 0] ![0, 0] a v hp hu) (shapeCast S1x128 b hc)) hs
      = refQuantRelu128 a b := by
  funext i
  have hi0 : (i 0).val < 100000 := (i 0).isLt
  have hk : ∃ k : S106496x128.Idx, (k 0).val = (i 0).val ∧ k 1 = i 1 :=
    ⟨ix2 (⟨(i 0).val, by omega⟩ : Fin 106496) (i 1), rfl, rfl⟩
  obtain ⟨k, hk0, hk1⟩ := hk
  rw [extractStridedSlice_apply ![0, 0] _ hs i k (fun ax => match ax with
    | ⟨0, _⟩ => by show (k 0).val = 0 + (i 0).val; omega
    | ⟨1, _⟩ => by show (k 1).val = 0 + (i 1).val; rw [hk1]; omega)]
  have hpad : pad S106496x128 ![0, 0] ![6496, 0] ![0, 0] a v hp hu k = a i :=
    pad_apply_of_inside ![0, 0] ![6496, 0] ![0, 0] a v hp hu k i (fun ax => match ax with
      | ⟨0, _⟩ => by show (k 0).val = 0 + (i 0).val * (0 + 1); omega
      | ⟨1, _⟩ => by show (k 1).val = 0 + (i 1).val * (0 + 1); rw [hk1]; omega)
  have hrow : shapeCast S1x128 b hc (ix2 (0 : Fin 1) (k 1)) = b (ix1 (i 1)) := by
    rw [hk1]; exact shapeCast_a_1a_apply b hc (0 : Fin 1) (i 1)
  show quantize (FloatOps.maximumf (FloatOps.addf (pad S106496x128 ![0, 0] ![6496, 0] ![0, 0] a v hp hu k) (shapeCast S1x128 b hc (ix2 (0 : Fin 1) (k 1)))) (Scalar.ofBits .f32 0x00000000#32))
    = quantize (FloatOps.maximumf (FloatOps.addf (a i) (b (ix1 (i 1)))) (Scalar.ofBits .f32 0x00000000#32))
  rw [hpad, hrow]

/-- The same for the 64-column stage without the positive part. -/
theorem slice_quant64_pad (a : S100000x64.Idx → Ideal .f32) (b : S64.Idx → Ideal .f32) (v : Vec Ideal S_ .f32)
    (hp : S100000x64.Pads (![0, 0] : Fin 2 → Nat) ![6496, 0] ![0, 0] S106496x64) (hu : 0 < S_.numel)
    (hc : S64.ShapeCasts S1x64) (hs : S106496x64.Slices ![0, 0] S100000x64) :
    extractStridedSlice S100000x64 ![0, 0]
        (quant64 (pad S106496x64 ![0, 0] ![6496, 0] ![0, 0] a v hp hu) (shapeCast S1x64 b hc)) hs
      = refQuant64 a b := by
  funext i
  have hi0 : (i 0).val < 100000 := (i 0).isLt
  have hk : ∃ k : S106496x64.Idx, (k 0).val = (i 0).val ∧ k 1 = i 1 :=
    ⟨ix2 (⟨(i 0).val, by omega⟩ : Fin 106496) (i 1), rfl, rfl⟩
  obtain ⟨k, hk0, hk1⟩ := hk
  rw [extractStridedSlice_apply ![0, 0] _ hs i k (fun ax => match ax with
    | ⟨0, _⟩ => by show (k 0).val = 0 + (i 0).val; omega
    | ⟨1, _⟩ => by show (k 1).val = 0 + (i 1).val; rw [hk1]; omega)]
  have hpad : pad S106496x64 ![0, 0] ![6496, 0] ![0, 0] a v hp hu k = a i :=
    pad_apply_of_inside ![0, 0] ![6496, 0] ![0, 0] a v hp hu k i (fun ax => match ax with
      | ⟨0, _⟩ => by show (k 0).val = 0 + (i 0).val * (0 + 1); omega
      | ⟨1, _⟩ => by show (k 1).val = 0 + (i 1).val * (0 + 1); rw [hk1]; omega)
  have hrow : shapeCast S1x64 b hc (ix2 (0 : Fin 1) (k 1)) = b (ix1 (i 1)) := by
    rw [hk1]; exact shapeCast_a_1a_apply b hc (0 : Fin 1) (i 1)
  show quantize (FloatOps.addf (pad S106496x64 ![0, 0] ![6496, 0] ![0, 0] a v hp hu k) (shapeCast S1x64 b hc (ix2 (0 : Fin 1) (k 1))))
    = quantize (FloatOps.addf (a i) (b (ix1 (i 1))))
  rw [hpad, hrow]

/-- The reference's first layer: its bias-add, positive part, clip, scale, round, rescale are the pointwise stage of the
    aggregated array and the bias. -/
theorem val_main_v55_eq (x0 x1 x2 x3) :
    val_main_v55 (F := Ideal) x0 x1 x2 x3 = refQuantRelu128 (val_main_v45 (F := Ideal) x0 x1 x2) x3 := by
  funext i
  have hidx : idx_main_v46 (idx_main_v47 i) = ix1 (i 1) := by
    funext a; match a with | ⟨0, _⟩ => rfl
  rw [val_main_v55_apply, val_main_v53_apply, val_main_v52_apply, val_main_v50_apply, val_main_call2_v2_apply,
    val_main_v49_apply, val_main_v48_apply, val_main_v47_apply, val_main_v46_apply, val_main_call1_v0_apply,
    val_main_call1_cst_apply, val_main_call2_v1_apply, val_main_call2_v0_apply, val_main_cst_10_apply,
    val_main_call2_v4_apply, val_main_call2_v3_apply, val_main_cst_11_apply, val_main_v51_apply, val_main_cst_12_apply,
    val_main_v54_apply, val_main_cst_13_apply, hidx]
  exact quantize_host _

/-- The reference's second layer. -/
theorem val_main_v79_eq (x0 x1 x2 x3 x4 x5) :
    val_main_v79 (F := Ideal) x0 x1 x2 x3 x4 x5 = refQuantRelu128 (val_main_v69 (F := Ideal) x0 x1 x2 x3 x4) x5 := by
  funext i
  have hidx : idx_main_v70 (idx_main_v71 i) = ix1 (i 1) := by
    funext a; match a with | ⟨0, _⟩ => rfl
  rw [val_main_v79_apply, val_main_v77_apply, val_main_v76_apply, val_main_v74_apply, val_main_call5_v2_apply,
    val_main_v73_apply, val_main_v72_apply, val_main_v71_apply, val_main_v70_apply, val_main_call4_v0_apply,
    val_main_call4_cst_apply, val_main_call5_v1_apply, val_main_call5_v0_apply, val_main_cst_17_apply,
    val_main_call5_v4_apply, val_main_call5_v3_apply, val_main_cst_18_apply, val_main_v75_apply, val_main_cst_19_apply,
    val_main_v78_apply, val_main_cst_20_apply, hidx]
  exact quantize_host _

/-- The reference's third layer (no positive part, 64 columns). -/
theorem val_main_v102_eq_quant (x0 x1 x2 x3 x4 x5 x6 x7) :
    val_main_v102 (F := Ideal) x0 x1 x2 x3 x4 x5 x6 x7 = refQuant64 (val_main_v93 (F := Ideal) x0 x1 x2 x3 x4 x5 x6) x7 := by
  funext i
  have hidx : idx_main_v94 (idx_main_v95 i) = ix1 (i 1) := by
    funext a; match a with | ⟨0, _⟩ => rfl
  rw [val_main_v102_apply, val_main_v100_apply, val_main_v99_apply, val_main_v97_apply, val_main_call7_v2_apply,
    val_main_v96_apply, val_main_v95_apply, val_main_v94_apply, val_main_call7_v1_apply, val_main_call7_v0_apply,
    val_main_cst_24_apply, val_main_call7_v4_apply, val_main_call7_v3_apply, val_main_cst_25_apply, val_main_v98_apply,
    val_main_cst_26_apply, val_main_v101_apply, val_main_cst_27_apply, hidx]
  exact quantize_host _

/-- First layer, kernel against reference: pad, stage, slice of the aggregated array is the reference's quantised layer. -/
theorem slice_quant_layer1 (x0 x1 x2 x3) (v : Vec Ideal S_ .f32)
    (hp : S100000x128.Pads (![0, 0] : Fin 2 → Nat) ![6496, 0] ![0, 0] S106496x128) (hu : 0 < S_.numel)
    (hc : S128.ShapeCasts S1x128) (hs : S106496x128.Slices ![0, 0] S100000x128) :
    extractStridedSlice S100000x128 ![0, 0]
        (quantRelu128 (pad S106496x128 ![0, 0] ![6496, 0] ![0, 0] (val_main_v45 (F := Ideal) x0 x1 x2) v hp hu) (shapeCast S1x128 x3 hc)) hs
      = val_main_v55 (F := Ideal) x0 x1 x2 x3 :=
  (slice_quantRelu128_pad _ x3 v hp hu hc hs).trans (val_main_v55_eq x0 x1 x2 x3).symm

/-- Second layer. -/
theorem slice_quant_layer2 (x0 x1 x2 x3 x4 x5) (v : Vec Ideal S_ .f32)
    (hp : S100000x128.Pads (![0, 0] : Fin 2 → Nat) ![6496, 0] ![0, 0] S106496x128) (hu : 0 < S_.numel)
    (hc : S128.ShapeCasts S1x128) (hs : S106496x128.Slices ![0, 0] S100000x128) :
    extractStridedSlice S100000x128 ![0, 0]
        (quantRelu128 (pad S106496x128 ![0, 0] ![6496, 0] ![0, 0] (val_main_v69 (F := Ideal) x0 x1 x2 x3 x4) v hp hu) (shapeCast S1x128 x5 hc)) hs
      = val_main_v79 (F := Ideal) x0 x1 x2 x3 x4 x5 :=
  (slice_quantRelu128_pad _ x5 v hp hu hc hs).trans (val_main_v79_eq x0 x1 x2 x3 x4 x5).symm

/-- Third layer. -/
theorem slice_quant_layer3 (x0 x1 x2 x3 x4 x5 x6 x7) (v : Vec Ideal S_ .f32)
    (hp : S100000x64.Pads (![0, 0] : Fin 2 → Nat) ![6496, 0] ![0, 0] S106496x64) (hu : 0 < S_.numel)
    (hc : S64.ShapeCasts S1x64) (hs : S106496x64.Slices ![0, 0] S100000x64) :
    extractStridedSlice S100000x64 ![0, 0]
        (quant64 (pad S106496x64 ![0, 0] ![6496, 0] ![0, 0] (val_main_v93 (F := Ideal) x0 x1 x2 x3 x4 x5 x6) v hp hu) (shapeCast S1x64 x7 hc)) hs
      = val_main_v102 (F := Ideal) x0 x1 x2 x3 x4 x5 x6 x7 :=
  (slice_quant64_pad _ x7 v hp hu hc hs).trans (val_main_v102_eq_quant x0 x1 x2 x3 x4 x5 x6 x7).symm

section Printed
open Cert.KernelIdeal.Facts₀

/-- First layer, with the shape facts as the program prints them. -/
theorem layer1_stage (x0 x1 x2 x3) (v : Vec Ideal S_ .f32) :
    extractStridedSlice S100000x128 ![0, 0]
        (quantRelu128 (pad S106496x128 ![0, 0] ![6496, 0] ![0, 0] (val_main_v45 (F := Ideal) x0 x1 x2) v pads_S100000x128_S106496x128_064960_000 h_S_)
          (shapeCast S1x128 x3 shapeCasts_S128_S1x128))
        slices_S106496x128_S100000x128_0_0
      = val_main_v55 (F := Ideal) x0 x1 x2 x3 :=
  slice_quant_layer1 x0 x1 x2 x3 v _ _ _ _

/-- Second layer, with the shape facts as the program prints them. -/
theorem layer2_stage (x0 x1 x2 x3 x4 x5) (v : Vec Ideal S_ .f32) :
    extractStridedSlice S100000x128 ![0, 0]
        (quantRelu128 (pad S106496x128 ![0, 0] ![6496, 0] ![0, 0] (val_main_v69 (F := Ideal) x0 x1 x2 x3 x4) v pads_S100000x128_S106496x128_064960_000 h_S_)
          (shapeCast S1x128 x5 shapeCasts_S128_S1x128))
        slices_S106496x128_S100000x128_0_0
      = val_main_v79 (F := Ideal) x0 x1 x2 x3 x4 x5 :=
  slice_quant_layer2 x0 x1 x2 x3 x4 x5 v _ _ _ _

/-- Third layer, with the shape facts as the program prints them. -/
theorem layer3_stage (x0 x1 x2 x3 x4 x5 x6 x7) (v : Vec Ideal S_ .f32) :
    extractStridedSlice S100000x64 ![0, 0]
        (quant64 (pad S106496x64 ![0, 0] ![6496, 0] ![0, 0] (val_main_v93 (F := Ideal) x0 x1 x2 x3 x4 x5 x6) v pads_S100000x64_S106496x64_064960_000 h_S_)
          (shapeCast S1x64 x7 shapeCasts_S64_S1x64))
        slices_S106496x64_S100000x64_0_0
      = val_main_v102 (F := Ideal) x0 x1 x2 x3 x4 x5 x6 x7 :=
  slice_quant_layer3 x0 x1 x2 x3 x4 x5 x6 x7 v _ _ _ _

end Printed

end Cert.KernelIdeal.QuantVal

end
-- ==== Proof.Layers.lean ====
/-
  The three layers, boundary by boundary.

  Write x, E, W1, b1, W2, b2, W3, b3 for the eight arguments.  A layer takes node features h (the input x, or the previous
  layer's output), multiplies by the layer's weight, gathers the product at each edge's source, scales by the edge's weight,
  sums into the edge's target, adds the bias, applies relu (layers one and two), clips to [-127/128, 127/128], multiplies by
  128, rounds to the nearest integer (ties to even) and divides by 128.  The kernel does the product and the bias-to-rounding
  stage in pallas regions over arrays padded to a whole number of blocks, and everything between them on the host, by the
  same operations as the reference.  Walking the boundaries of the run in order, the contents of the buffer each segment
  hands to the next is, on its first 100000 rows, the reference's stage of the same meaning as a function of the arguments:
  a region's product is the reference's dot_general (a row of the padded array below row 100000 is the row of the unpadded
  one, and each row's sum over the 128 inner positions is the same sum), the host message passing is literally the
  reference's, and a bias region is the reference's chain of pointwise operations entry by entry.
-/
import proofs.«134931_j22728966931036_1_alg».proof.Proof.Carry
import proofs.«134931_j22728966931036_1_alg».proof.Proof.HostPrefix
import proofs.«134931_j22728966931036_1_alg».proof.Proof.EdgeWeights
import proofs.«134931_j22728966931036_1_alg».proof.Proof.Stretches
import proofs.«134931_j22728966931036_1_alg».proof.Proof.MatRegion0
import proofs.«134931_j22728966931036_1_alg».proof.Proof.MatRegion2
import proofs.«134931_j22728966931036_1_alg».proof.Proof.MatRegion4
import proofs.«134931_j22728966931036_1_alg».proof.Proof.QuantRegion1
import proofs.«134931_j22728966931036_1_alg».proof.Proof.QuantRegion3
import proofs.«134931_j22728966931036_1_alg».proof.Proof.QuantRegion5
import proofs.«134931_j22728966931036_1_alg».proof.Proof.QuantRef

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Layer one -/

/-- Region 0's array, on its first 100000 rows, is x · W1. -/
theorem product1 : extractStridedSlice S100000x128 ![0, 0] (W5 m ρ c (Proc.devRef .tc main_v33)) slices_S102400x128_S100000x128_0_0
    = Cert.ReferenceIdeal.ReadP.val_main_v32 (F := Ideal) (m ((c : Thread nD τ).loc main_arg0)) (m ((c : Thread nD τ).loc main_arg2)) := by
  have e : W5 m ρ c (Proc.devRef .tc main_v33) = MatVal.rowsTimes128
      (pad S102400x128 ![0, 0] ![2400, 0] ![0, 0] ((m ((c : Thread nD τ).loc main_arg0)) : (⟨S100000x128, .f32⟩ : BufTy).Contents (Elt Ideal)) (sitofp (F := Ideal) .f32 (constantI S_ 32 0#32))
        pads_S100000x128_S102400x128_024000_000 h_S_) (m ((c : Thread nD τ).loc main_arg2)) :=
    ((W5_arr m ρ c 2).trans (MatVal.region0_out (V4 m ρ) c)).trans
      (congrArg₂ MatVal.rowsTimes128 (Prefix.x_padded m ρ c) (Carry.args_entry m ρ c).w1)
  rw [e]
  unfold Cert.ReferenceIdeal.ReadP.val_main_v32
  exact MatVal.slice_rowsTimes128_pad _ _ _

set_option maxHeartbeats 4000000 in
/-- The first layer's message passing is the reference's. -/
theorem aggregated1 : W6 m ρ c (Proc.devRef .tc main_v47) = Cert.ReferenceIdeal.ReadP.val_main_v45 (F := Ideal) (m ((c : Thread nD τ).loc main_arg0)) (m ((c : Thread nD τ).loc main_arg1)) (m ((c : Thread nD τ).loc main_arg2)) := by
  refine (Stretches.aggregate1 (W5 m ρ c)).trans ?_
  rw [product1 m ρ c, (Carry.kept_4_5 m ρ c).src, (Carry.kept_4_5 m ρ c).dst, (Carry.kept_4_5 m ρ c).nrm,
    Prefix.src_eq m ρ c, Prefix.dst_eq m ρ c, EdgeWeights.nrm_eq m ρ c]
  unfold Cert.ReferenceIdeal.ReadP.val_main_v45 Cert.ReferenceIdeal.ReadP.val_main_v44 Cert.ReferenceIdeal.ReadP.val_main_v43 Cert.ReferenceIdeal.ReadP.val_main_cst_9 Cert.ReferenceIdeal.ReadP.val_main_v42 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_c_8 Cert.ReferenceIdeal.ReadP.val_main_v34 Cert.ReferenceIdeal.ReadP.val_main_v33 Cert.ReferenceIdeal.ReadP.val_main_c_7
  rfl

/-- What region 1 is handed: the aggregated array padded, and the first bias as a row. -/
theorem rows1 : W8 m ρ c (Proc.devRef .tc main_v48)
    = pad S106496x128 ![0, 0] ![6496, 0] ![0, 0] (Cert.ReferenceIdeal.ReadP.val_main_v45 (F := Ideal) (m ((c : Thread nD τ).loc main_arg0)) (m ((c : Thread nD τ).loc main_arg1)) (m ((c : Thread nD τ).loc main_arg2)) : (⟨S100000x128, .f32⟩ : BufTy).Contents (Elt Ideal))
        (sitofp (F := Ideal) .f32 (W6 m ρ c (Proc.devRef .tc main_c_11))) pads_S100000x128_S106496x128_064960_000 h_S_ :=
  (Stretches.padded1 (W6 m ρ c)).trans (by rw [aggregated1 m ρ c])

theorem bias1 : W8 m ρ c (Proc.devRef .tc main_v49) = shapeCast S1x128 ((m ((c : Thread nD τ).loc main_arg3)) : (⟨S128, .f32⟩ : BufTy).Contents (Elt Ideal)) shapeCasts_S128_S1x128 :=
  (Stretches.biasRow1 (W6 m ρ c)).trans
    (by rw [((Carry.kept_4_5 m ρ c).trans (Carry.kept_hostOps1 m ρ c)).b1, (Carry.args_entry m ρ c).b1])

/-- Region 1's array, on its first 100000 rows, is the first layer's output. -/
theorem activated1 : extractStridedSlice S100000x128 ![0, 0] (W9 m ρ c (Proc.devRef .tc main_v50)) slices_S106496x128_S100000x128_0_0
    = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) := by
  have e := ((W9_arr m ρ c 2).trans (QuantVal.region1_out (V8 m ρ) c)).trans
      (congrArg₂ QuantVal.quantRelu128 (rows1 m ρ c) (bias1 m ρ c))
  rw [show W9 m ρ c (Proc.devRef .tc main_v50) = _ from e]
  exact QuantVal.slice_quant_layer1 _ _ _ _ _ _ _ _ _

/-- What region 2 is handed: the first layer's output padded. -/
theorem rows2 : W11 m ρ c (Proc.devRef .tc main_v52)
    = pad S102400x128 ![0, 0] ![2400, 0] ![0, 0] (Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) : (⟨S100000x128, .f32⟩ : BufTy).Contents (Elt Ideal))
        (sitofp (F := Ideal) .f32 (constantI S_ 32 0#32)) pads_S100000x128_S102400x128_024000_000 h_S_ :=
  (Stretches.repadded1 (W9 m ρ c)).trans (by rw [activated1 m ρ c])

/-! ## Layer two -/

/-- Region 2's array, on its first 100000 rows, is the first layer's output times W2. -/
theorem product2 : extractStridedSlice S100000x128 ![0, 0] (W12 m ρ c (Proc.devRef .tc main_v53)) slices_S102400x128_S100000x128_0_0
    = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e := ((W12_arr m ρ c 2).trans (MatVal.region2_out (V11 m ρ) c)).trans
      (congrArg₂ MatVal.rowsTimes128 (rows2 m ρ c) ((Carry.kept_4_11 m ρ c).w2.trans (Carry.args_entry m ρ c).w2))
  rw [show W12 m ρ c (Proc.devRef .tc main_v53) = _ from e]
  unfold Cert.ReferenceIdeal.ReadP.val_main_v56
  exact MatVal.slice_rowsTimes128_pad _ _ _

set_option maxHeartbeats 4000000 in
/-- The second layer's message passing is the reference's. -/
theorem aggregated2 : W13 m ρ c (Proc.devRef .tc main_v67) = Cert.ReferenceIdeal.ReadP.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Stretches.aggregate2 (W12 m ρ c)).trans ?_
  rw [product2 m ρ c, (Carry.kept_4_12 m ρ c).src, (Carry.kept_4_12 m ρ c).dst, (Carry.kept_4_12 m ρ c).nrm,
    Prefix.src_eq m ρ c, Prefix.dst_eq m ρ c, EdgeWeights.nrm_eq m ρ c]
  unfold Cert.ReferenceIdeal.ReadP.val_main_v69 Cert.ReferenceIdeal.ReadP.val_main_v68 Cert.ReferenceIdeal.ReadP.val_main_v67 Cert.ReferenceIdeal.ReadP.val_main_cst_16 Cert.ReferenceIdeal.ReadP.val_main_v66 Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_c_15 Cert.ReferenceIdeal.ReadP.val_main_v58 Cert.ReferenceIdeal.ReadP.val_main_v57 Cert.ReferenceIdeal.ReadP.val_main_c_14
  rfl

theorem rows3 : W15 m ρ c (Proc.devRef .tc main_v68)
    = pad S106496x128 ![0, 0] ![6496, 0] ![0, 0] (Cert.ReferenceIdeal.ReadP.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : (⟨S100000x128, .f32⟩ : BufTy).Contents (Elt Ideal))
        (sitofp (F := Ideal) .f32 (W13 m ρ c (Proc.devRef .tc main_c_16))) pads_S100000x128_S106496x128_064960_000 h_S_ :=
  (Stretches.padded2 (W13 m ρ c)).trans (by rw [aggregated2 m ρ c])

theorem bias2 : W15 m ρ c (Proc.devRef .tc main_v69) = shapeCast S1x128 ((m ((c : Thread nD τ).loc main_arg5)) : (⟨S128, .f32⟩ : BufTy).Contents (Elt Ideal)) shapeCasts_S128_S1x128 :=
  (Stretches.biasRow2 (W13 m ρ c)).trans
    (by rw [((Carry.kept_4_12 m ρ c).trans (Carry.kept_hostOps3 m ρ c)).b2, (Carry.args_entry m ρ c).b2])

/-- Region 3's array, on its first 100000 rows, is the second layer's output. -/
theorem activated2 : extractStridedSlice S100000x128 ![0, 0] (W16 m ρ c (Proc.devRef .tc main_v70)) slices_S106496x128_S100000x128_0_0
    = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e := ((W16_arr m ρ c 2).trans (QuantVal.region3_out (V15 m ρ) c)).trans
      (congrArg₂ QuantVal.quantRelu128 (rows3 m ρ c) (bias2 m ρ c))
  rw [show W16 m ρ c (Proc.devRef .tc main_v70) = _ from e]
  exact QuantVal.slice_quant_layer2 _ _ _ _ _ _ _ _ _ _ _

theorem rows4 : W18 m ρ c (Proc.devRef .tc main_v72)
    = pad S102400x128 ![0, 0] ![2400, 0] ![0, 0] (Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : (⟨S100000x128, .f32⟩ : BufTy).Contents (Elt Ideal))
        (sitofp (F := Ideal) .f32 (constantI S_ 32 0#32)) pads_S100000x128_S102400x128_024000_000 h_S_ :=
  (Stretches.repadded2 (W16 m ρ c)).trans (by rw [activated2 m ρ c])

/-! ## Layer three -/

/-- Region 4's array, on its first 100000 rows, is the second layer's output times W3. -/
theorem product3 : extractStridedSlice S100000x64 ![0, 0] (W19 m ρ c (Proc.devRef .tc main_v73)) slices_S102400x64_S100000x64_0_0
    = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e := ((W19_arr m ρ c 2).trans (MatVal.region4_out (V18 m ρ) c)).trans
      (congrArg₂ MatVal.rowsTimes64 (rows4 m ρ c) ((Carry.kept_4_18 m ρ c).w3.trans (Carry.args_entry m ρ c).w3))
  rw [show W19 m ρ c (Proc.devRef .tc main_v73) = _ from e]
  unfold Cert.ReferenceIdeal.ReadP.val_main_v80
  exact MatVal.slice_rowsTimes64_pad _ _ _

set_option maxHeartbeats 4000000 in
/-- The third layer's message passing is the reference's. -/
theorem aggregated3 : W20 m ρ c (Proc.devRef .tc main_v87) = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Stretches.aggregate3 (W19 m ρ c)).trans ?_
  rw [product3 m ρ c, (Carry.kept_4_19 m ρ c).src, (Carry.kept_4_19 m ρ c).dst, (Carry.kept_4_19 m ρ c).nrm,
    Prefix.src_eq m ρ c, Prefix.dst_eq m ρ c, EdgeWeights.nrm_eq m ρ c]
  unfold Cert.ReferenceIdeal.ReadP.val_main_v93 Cert.ReferenceIdeal.ReadP.val_main_v92 Cert.ReferenceIdeal.ReadP.val_main_v91 Cert.ReferenceIdeal.ReadP.val_main_cst_23 Cert.ReferenceIdeal.ReadP.val_main_v90 Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_v85 Cert.ReferenceIdeal.ReadP.val_main_v84 Cert.ReferenceIdeal.ReadP.val_main_v83 Cert.ReferenceIdeal.ReadP.val_main_c_22 Cert.ReferenceIdeal.ReadP.val_main_v82 Cert.ReferenceIdeal.ReadP.val_main_v81 Cert.ReferenceIdeal.ReadP.val_main_c_21
  rfl

theorem rows5 : W22 m ρ c (Proc.devRef .tc main_v88)
    = pad S106496x64 ![0, 0] ![6496, 0] ![0, 0] (Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : (⟨S100000x64, .f32⟩ : BufTy).Contents (Elt Ideal))
        (sitofp (F := Ideal) .f32 (W20 m ρ c (Proc.devRef .tc main_c_21))) pads_S100000x64_S106496x64_064960_000 h_S_ :=
  (Stretches.padded3 (W20 m ρ c)).trans (by rw [aggregated3 m ρ c])

theorem bias3 : W22 m ρ c (Proc.devRef .tc main_v89) = shapeCast S1x64 ((m ((c : Thread nD τ).loc main_arg7)) : (⟨S64, .f32⟩ : BufTy).Contents (Elt Ideal)) shapeCasts_S64_S1x64 :=
  (Stretches.biasRow3 (W20 m ρ c)).trans
    (by rw [((Carry.kept_4_19 m ρ c).trans (Carry.kept_hostOps5 m ρ c)).b3, (Carry.args_entry m ρ c).b3])

/-- THE RESULT: the last boundary's contents at the result buffer is the reference's last stage of the arguments. -/
theorem result : W24 m ρ c (Proc.devRef .tc main_v91) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Stretches.result_slice (W23 m ρ c)).trans ?_
  have e := ((W23_arr m ρ c 2).trans (QuantVal.region5_out (V22 m ρ) c)).trans
      (congrArg₂ QuantVal.quant64 (rows5 m ρ c) (bias3 m ρ c))
  rw [show W23 m ρ c (Proc.devRef .tc main_v90) = _ from e]
  exact QuantVal.slice_quant_layer3 _ _ _ _ _ _ _ _ _ _ _ _ _

end Cert.KernelIdeal.Layers

end
-- ==== Proof.lean ====
/-
  The idealized kernel and the idealized reference compute the same array.

  The program is a three-layer graph convolution on 100000 nodes and 1600000 edges (plus one self-loop per node).  With
  d the number of edges into a node and w(e) = d(source e)^-1/2 · d(target e)^-1/2, a layer maps node features h to
      q( relu?( Σ_{e : target e = v}  w(e) · (h · W)(source e)  +  b ) ),
  q(t) = round-to-even(128 · clip(t, -127/128, 127/128)) / 128, with the relu in the first two layers only.

  The kernel computes the dense product h · W in a pallas region tiled over 25 blocks of 4096 rows of h padded to 102400
  rows, and the stage from the bias to the division in a region tiled over 13 blocks of 8192 rows of the aggregated array
  padded to 106496 rows; the gather, the scaling and the scatter-add stay on the host, exactly as the reference writes them.
  Over the extended reals every operation is the exact one, so nothing distinguishes the two computations but layout:
    · a block of the product holds, at (r, c), the sum over the 128 inner positions of h(r, ·) · W(·, c) — the same sum the
      reference's dot_general takes — and the 25 blocks tile the padded array, whose first 100000 rows are h's;
    · the bias region is pointwise, its 13 blocks tile the padded array, and entry by entry it applies the reference's
      operations in the reference's order to the same two numbers;
    · the host operations between the regions are the reference's own, applied to arrays already shown equal.
  No law of arithmetic is used beyond these identifications, so the finiteness of the inputs is never needed.

  Modules: KernelRun (the kernel's run ends with the result buffer at the last boundary's contents), Carry (which buffers the
  segments leave alone), HostPrefix and EdgeWeights (indices and edge weights), Stretches (each host stretch as a function of
  the contents it starts from), MatSpec / MatRegion0,2,4 (the product regions), QuantSpec / QuantRegion1,3,5 / QuantRef (the
  bias regions), Layers (the chain of boundaries), RefRun / RefRead (the reference's run and its stages).
-/
import proofs.«134931_j22728966931036_1_alg».proof.Defs
import proofs.«134931_j22728966931036_1_alg».proof.Proof.Gen.Kernel
import proofs.«134931_j22728966931036_1_alg».proof.Proof.Gen.Kernel.Skeleton
import proofs.«134931_j22728966931036_1_alg».proof.Proof.Gen.Kernel.Launch
import proofs.«134931_j22728966931036_1_alg».proof.Proof.Gen.Kernel.Points
import proofs.«134931_j22728966931036_1_alg».proof.Proof.Gen.Kernel.Frame
import proofs.«134931_j22728966931036_1_alg».proof.Proof.Gen.KernelIdeal
import proofs.«134931_j22728966931036_1_alg».proof.Proof.Gen.KernelIdeal.Skeleton
import proofs.«134931_j22728966931036_1_alg».proof.Proof.Gen.KernelIdeal.Launch
import proofs.«134931_j22728966931036_1_alg».proof.Proof.Gen.KernelIdeal.Points
import proofs.«134931_j22728966931036_1_alg».proof.Proof.Gen.KernelIdeal.Frame
import proofs.«134931_j22728966931036_1_alg».proof.Proof.Gen.ReferenceIdeal
import proofs.«134931_j22728966931036_1_alg».proof.Proof.Gen.Pre_finite_inputs
import proofs.«134931_j22728966931036_1_alg».proof.Proof.KernelRun
import proofs.«134931_j22728966931036_1_alg».proof.Proof.Layers
import proofs.«134931_j22728966931036_1_alg».proof.Proof.RefRun
import proofs.«134931_j22728966931036_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- From memories agreeing on the eight arguments both programs run, and both end with the result at the reference's last
    stage of the arguments: the kernel's by the walk along its boundaries, the reference's by its own run. -/
theorem algebraic : Cert.algebraic_KernelIdeal_ReferenceIdeal := by
  intro m ρ m' ρ' _ hagree
  refine ⟨fun c => Cert.ReferenceIdeal.ReadP.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.result m ρ c), (h c).2⟩)
      (Cert.KernelIdeal.RunVal.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v102_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
